-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S256x10 1) : IVec S_ 1 :=
  let main_c_5 : IVec S_ 1 := constantI S_ 1 1#1
  let main_v17 : IVec S_ 1 := (fun x v => Host.reduce IntOp.andi x v reducesTo_S256x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S8192x128 .f32) (main_arg1 : IVec S8192 32) (main_arg2 : FVec F S128x256 .f32) (main_arg3 : FVec F S256 .f32) (main_arg4 : FVec F S256x10 .f32) (main_arg5 : FVec F S10 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x10 .f32 := Host.absf main_arg4
  let main_cst_4 : FVec F S_ .f32 := constant S_ .f32 0x7F800000#32
  let main_v15 : FVec F S256x10 .f32 := broadcastInDim S256x10 ![] bcast_S_S256x10 main_cst_4
  let main_v16 : IVec S256x10 1 := cmpf .olt main_v14 main_v15
  fn_part1 (F := F) main_arg5 main_v13 main_v16
-- ==== Kernel.lean ====
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S8192x10 : Shape := ⟨2, ![8192, 10]⟩
abbrev S1024x10 : Shape := ⟨2, ![1024, 10]⟩
abbrev S1x10 : Shape := ⟨2, ![1, 10]⟩
abbrev S_ : Shape := ⟨0, ![]⟩
abbrev S64x10 : Shape := ⟨2, ![64, 10]⟩
abbrev S8192x1 : Shape := ⟨2, ![8192, 1]⟩
abbrev S64 : Shape := ⟨1, ![64]⟩
abbrev S64x1 : Shape := ⟨2, ![64, 1]⟩

abbrev nBuf : Space → Nat
  | .hbm => 39
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S128x256, .f32⟩
  | .hbm, ⟨7, _⟩ => ⟨S8192x10, .f32⟩
  | .hbm, ⟨8, _⟩ => ⟨S_, .f32⟩
  | .hbm, ⟨9, _⟩ => ⟨S64x10, .f32⟩
  | .hbm, ⟨10, _⟩ => ⟨S8192x1, .i32⟩
  | .hbm, ⟨11, _⟩ => ⟨S64x10, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S64, .f32⟩
  | .hbm, ⟨16, _⟩ => ⟨S8192x1, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x10, .f32⟩
  | .hbm, ⟨23, _⟩ => ⟨S64x10, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x10, .f32⟩
  | .hbm, ⟨31, _⟩ => ⟨S64x10, .f32⟩
  | .hbm, ⟨32, _⟩ => ⟨S64x10, .f32⟩
  | .hbm, ⟨33, _⟩ => ⟨S_, .f32⟩
  | .hbm, ⟨34, _⟩ => ⟨S64, .f32⟩
  | .hbm, ⟨35, _⟩ => ⟨S64x1, .f32⟩
  | .hbm, ⟨36, _⟩ => ⟨S64x1, .f32⟩
  | .hbm, ⟨37, _⟩ => ⟨S64x10, .f32⟩
  | .hbm, ⟨38, _⟩ => ⟨S64x10, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S256, .f32⟩
  | .local _ .vmem, ⟨4, _⟩ => ⟨S128x256, .f32⟩
  | .local _ .vmem, ⟨5, _⟩ => ⟨S128x256, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S256, .f32⟩
  | .local _ .vmem, ⟨10, _⟩ => ⟨S128x256, .f32⟩
  | .local _ .vmem, ⟨11, _⟩ => ⟨S256x10, .f32⟩
  | .local _ .vmem, ⟨12, _⟩ => ⟨S10, .f32⟩
  | .local _ .vmem, ⟨13, _⟩ => ⟨S1024x10, .f32⟩
  | .local _ .vmem, ⟨14, _⟩ => ⟨S1024x10, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v14 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  broadcasts_S1024x1_S1024x256 : S1024x1.Broadcasts S1024x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  bcast_S_S64x10 : S_.BroadcastsInDim S64x10 (![] : Fin 0 → Fin S64x10.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  reducesTo_S64x10_S64_d1 : S64x10.ReducesTo [1] S64
  h_S_ : 0 < S_.numel
  dot_S1024x128_S128x256_S1024x256_1_0_0_1_n_n_wf : DotDims.WF S1024x128 S128x256 S1024x256 [1] [0] [0] [1] [] []
  dot_S1024x128_S1024x256_S128x256_0_0_1_1_n_n_wf : DotDims.WF S1024x128 S1024x256 S128x256 [0] [0] [1] [1] [] []
  dot_S1024x256_S256x10_S1024x10_1_0_0_1_n_n_wf : DotDims.WF S1024x256 S256x10 S1024x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x10.size a ≤ S256x10.size a
  hwx1_4 : ∀ i : grid1.Coords, EltTy.bits .f32 = 32 ∨ (Rect.block (s := S256x10) S256x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10.size a ≤ S10.size a
  hwx1_5 : ∀ i : grid1.Coords, EltTy.bits .f32 = 32 ∨ (Rect.block (s := S10) S10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x10.size a ≤ S8192x10.size a
  hwx1_6 : ∀ i : grid1.Coords, EltTy.bits .f32 = 32 ∨ (Rect.block (s := S8192x10) S1024x10.size (cc1_transform_6 i) (hinb1_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1024x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S8192x2 : Shape := ⟨2, ![8192, 2]⟩
abbrev S8192x256 : Shape := ⟨2, ![8192, 256]⟩
abbrev S1x256 : Shape := ⟨2, ![1, 256]⟩
abbrev S8192x10 : Shape := ⟨2, ![8192, 10]⟩
abbrev S1x10 : Shape := ⟨2, ![1, 10]⟩
abbrev S64x10 : Shape := ⟨2, ![64, 10]⟩
abbrev S64 : Shape := ⟨1, ![64]⟩
abbrev S64x1 : Shape := ⟨2, ![64, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S128x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S_, .f32⟩
  | .hbm, ⟨37, _⟩ => ⟨S8192, .f32⟩
  | .hbm, ⟨38, _⟩ => ⟨S8192x8192, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x10, .f32⟩
  | .hbm, ⟨48, _⟩ => ⟨S1x10, .f32⟩
  | .hbm, ⟨49, _⟩ => ⟨S8192x10, .f32⟩
  | .hbm, ⟨50, _⟩ => ⟨S8192x10, .f32⟩
  | .hbm, ⟨51, _⟩ => ⟨S_, .f32⟩
  | .hbm, ⟨52, _⟩ => ⟨S64x10, .f32⟩
  | .hbm, ⟨53, _⟩ => ⟨S8192x1, .i32⟩
  | .hbm, ⟨54, _⟩ => ⟨S64x10, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S64, .f32⟩
  | .hbm, ⟨59, _⟩ => ⟨S8192x1, .i32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64x1, .f32⟩
  | .hbm, ⟨65, _⟩ => ⟨S64x10, .f32⟩
  | .hbm, ⟨66, _⟩ => ⟨S64x10, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64x1, .f32⟩
  | .hbm, ⟨73, _⟩ => ⟨S64x10, .f32⟩
  | .hbm, ⟨74, _⟩ => ⟨S64x10, .f32⟩
  | .hbm, ⟨75, _⟩ => ⟨S64x10, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x10, .f32⟩
  | .hbm, ⟨81, _⟩ => ⟨S64x10, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v45 : Ref sig .tc := ⟨.hbm, 81, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192 : S_.BroadcastsInDim S8192 (![] : Fin 0 → Fin S8192.rank)
  concatenates_S8192x1_S8192x1_S8192x2_d1 : Shape.Concatenates [S8192x1, S8192x1] S8192x2 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  reducesTo_S64x10_S64_d1 : S64x10.ReducesTo [1] S64
  dot_S8192x128_S128x8192_S8192x8192_1_0_0_1_n_n_wf : DotDims.WF S8192x128 S128x8192 S8192x8192 [1] [0] [0] [1] [] []
  scatter_S8192x8192_S8192x2_S8192_n_01_01_1_wf : ScatterDims.WF S8192x8192 S8192x2 S8192 [] [0, 1] [0, 1] 1
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x10_S8192x10_1_0_0_1_n_n_wf : DotDims.WF S8192x256 S256x10 S8192x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

class Facts : Prop extends Facts₀ where

variable [Facts]
-- ==== Proof.CosineSpec.lean ====
/-
  The mathematics both programs compute, index by index on the extended reals.

  Rows of `x` are scaled to unit length (a norm below a small threshold is replaced by the threshold), giving `xn`; a dense
  layer with a ramp gives `hid`. One side forms the full table of inner products of scaled rows with its diagonal
  set to one (`adj`) and multiplies it into `hid` (`aggR`); the other first forms the small matrix
  `tsum = xnᵀ · hid`, summed tile by tile over eight tiles of 1024 rows, multiplies each scaled row into it, and
  corrects the diagonal term, `(1 - ‖xn_i‖²) · hid_i` (`aggK`). A second dense layer (`outOf`) follows either.
-/
import Idealize.ShloMosaic.PureOps.Ideal
import Idealize.ShloMosaic.PureOps.Ideal.Laws

noncomputable section

namespace Cert.CosineGraph

open Idealize.ShloMosaic

/-- The threshold a row norm is raised to (the single-precision word nearest 1e-8). -/
def eps : EReal := Ideal.ofBits .f32 0x322BCC77#32
/-- The single-precision word of 1. -/
def one : EReal := Ideal.ofBits .f32 0x3F800000#32

section Layers

variable (x : Fin 8192 → Fin 128 → EReal) (W1 : Fin 128 → Fin 256 → EReal) (b1 : Fin 256 → EReal)

/-- The length of row `i`, raised to the threshold. -/
def nrm (i : Fin 8192) : EReal := max (Ideal.sqrt (∑ k : Fin 128, x i k * x i k)) eps
/-- Row `i` scaled by its length. -/
def xn (i : Fin 8192) (k : Fin 128) : EReal := Ideal.div (x i k) (nrm x i)
/-- The first dense layer with its ramp. -/
def hid (i : Fin 8192) (c : Fin 256) : EReal := max ((∑ k : Fin 128, x i k * W1 k c) + b1 c) 0
/-- Row `j` of tile `t` among all rows. -/
def row (t : Fin 8) (j : Fin 1024) : Fin 8192 := ⟨1024 * t.val + j.val, by omega⟩
/-- `xnᵀ · hid`, summed tile by tile. -/
def tsum (k : Fin 128) (c : Fin 256) : EReal :=
  ∑ t : Fin 8, ∑ j : Fin 1024, xn x (row t j) k * hid x W1 b1 (row t j) c
/-- The squared length of the scaled row `i`. -/
def diag (i : Fin 8192) : EReal := ∑ k : Fin 128, xn x i k * xn x i k
/-- The aggregation through the small matrix, with the diagonal term corrected. -/
def aggK (i : Fin 8192) (c : Fin 256) : EReal :=
  (∑ k : Fin 128, xn x i k * tsum x W1 b1 k c) + (one - diag x i) * hid x W1 b1 i c
/-- The table of inner products of scaled rows, its diagonal set to one. -/
def adj (i j : Fin 8192) : EReal := if i = j then one else ∑ k : Fin 128, xn x i k * xn x j k
/-- The aggregation through the full table. -/
def aggR (i : Fin 8192) (c : Fin 256) : EReal := ∑ j : Fin 8192, adj x i j * hid x W1 b1 j c

end Layers

/-- The second dense layer. -/
def outOf (agg : Fin 8192 → Fin 256 → EReal) (W2 : Fin 256 → Fin 10 → EReal) (b2 : Fin 10 → EReal)
    (i : Fin 8192) (o : Fin 10) : EReal := (∑ c : Fin 256, agg i c * W2 c o) + b2 o

end Cert.CosineGraph

end
-- ==== Proof.LibScatterRead.lean ====
/-
  A `stablehlo.scatter` read at one index of its result.

  `Host.scatter d f x idx upd` starts from the operand `x` and walks the update positions in row-major order; a
  position whose landing index `d.resultIdx? j idx` is `some i` replaces the element at `i` by the body `f` of that
  element and the update's element, and a position that lands outside the operand changes nothing. Seen from one
  result index `i` the walk is a fold of steps of which only those landing on `i` do anything there:
    * if no position lands on `i`, the result at `i` is the operand's element (`Host.scatter_apply_of_miss`);
    * if exactly one position `j` lands on `i`, the result at `i` is `f (x i) (upd j)` (`Host.scatter_apply_of_hit`)
      — for a body that returns the update (`x.at[…].set(v)`) this is `upd j`.
  Both come from two facts about a left fold of functions `κ → α` read at one point `k` (`foldl_apply_of_miss`,
  `foldl_apply_of_hit`), stated for an arbitrary step so that they do not depend on how the step is spelt.
-/
import Idealize.ShloMosaic.PureOps.ShapeOps
import Idealize.ShloMosaic.Lib.ValueIdx

namespace Idealize.ShloMosaic

section Fold
variable {ι κ α : Type}

/-- A left fold of functions read at a point `k` that no step of the list changes: the initial function at `k`. -/
theorem foldl_apply_of_miss (step : (κ → α) → ι → (κ → α)) (k : κ) :
    ∀ (L : List ι), (∀ n ∈ L, ∀ r, step r n k = r k) → ∀ r, L.foldl step r k = r k
  | [], _, _ => rfl
  | a :: L, h, r => by
    rw [List.foldl_cons, foldl_apply_of_miss step k L (fun n hn => h n (List.mem_cons_of_mem _ hn)),
      h a List.mem_cons_self]

/-- A left fold of functions read at a point `k` that exactly one entry `n` of a duplicate-free list changes, to
    `val` of the value found there: `val` of the initial function's value at `k`. -/
theorem foldl_apply_of_hit (step : (κ → α) → ι → (κ → α)) (k : κ) (n : ι) (val : α → α)
    (hhit : ∀ r, step r n k = val (r k)) :
    ∀ (L : List ι), L.Nodup → n ∈ L → (∀ n' ∈ L, n' ≠ n → ∀ r, step r n' k = r k) → ∀ r, L.foldl step r k = val (r k)
  | [], _, hn, _, _ => absurd hn List.not_mem_nil
  | a :: L, hnd, hn, hmiss, r => by
    rw [List.foldl_cons]
    have hnd' := List.nodup_cons.mp hnd
    by_cases ha : a = n
    · subst ha
      rw [foldl_apply_of_miss step k L (fun n' hn' =>
        hmiss n' (List.mem_cons_of_mem _ hn') (fun e => hnd'.1 (e ▸ hn'))), hhit]
    · have hnL : n ∈ L := (List.mem_cons.mp hn).resolve_left (fun e => ha e.symm)
      rw [foldl_apply_of_hit step k n val hhit L hnd'.2 hnL
        (fun n' hn' => hmiss n' (List.mem_cons_of_mem _ hn')), hmiss a List.mem_cons_self ha]

end Fold

section Scatter
variable {α : Type} {s si u : Shape} {w : Nat}

/-- A scatter read at a result index on which NO update position lands: the operand's element. -/
theorem Host.scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_miss _ i _ (fun n _ r => ?_) x
  generalize hq : d.resultIdx? (u.rowMajor.symm n) idx = q
  cases q with
  | none => rfl
  | some i₀ =>
    have hne : i ≠ i₀ := fun e => h _ (e ▸ hq)
    show (if i = i₀ then f (r i₀) (upd (u.rowMajor.symm n)) else r i) = r i
    rw [if_neg hne]

/-- A scatter read at a result index on which EXACTLY ONE update position `j` lands: the body of the operand's
    element and that update's element. -/
theorem Host.scatter_apply_of_hit (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  unfold Host.scatter
  refine foldl_apply_of_hit _ i (u.rowMajor j) (fun a => f a (upd j)) (fun r => ?_) _
    (List.nodup_finRange _) (List.mem_finRange _) (fun n' _ hne r => ?_) x
  · rw [Equiv.symm_apply_apply, hj]
    show (if i = i then f (r i) (upd j) else r i) = f (r i) (upd j)
    rw [if_pos rfl]
  · generalize hq : d.resultIdx? (u.rowMajor.symm n') idx = q
    cases q with
    | none => rfl
    | some i₀ =>
      have hne' : i ≠ i₀ := fun e => hne (by
        have := huniq _ (e ▸ hq)
        rw [← this, Equiv.apply_symm_apply])
      show (if i = i₀ then f (r i₀) (upd (u.rowMajor.symm n')) else r i) = r i
      rw [if_neg hne']

end Scatter

end Idealize.ShloMosaic
-- ==== Proof.RefXn.lean ====
/-
  The reference's scaled rows and their table of inner products, read index by index.

  The row norm is the square root of the sum of squares along the row (a sum started from zero), raised to the
  threshold; each entry is divided by its row's norm; the product of the scaled rows with their transpose has at
  (i, j) the inner product of scaled rows i and j.
-/
import proofs.«121959_j55095840473790_1_alg».proof.Proof.Gen.ReferenceIdeal.Read
import proofs.«121959_j55095840473790_1_alg».proof.Proof.CosineSpec

import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Cert.CosineGraph

variable (x : (⟨S8192x128, .f32⟩ : BufTy).Contents (Elt Ideal))

/-! The index maps of the layout operations, at indices given by their coordinates. -/

theorem idx_sumsq (i : Fin 8192) (z : Fin 1) (k : Fin 128) :
    idx_main_call0_v1 (idx_main_call0_v2 (ValueIdx.ix2 i z)) k = ValueIdx.ix2 i k :=
  funext fun a => match a with | ⟨0, _⟩ => rfl | ⟨1, _⟩ => rfl

theorem idx_normcol (i : Fin 8192) (k : Fin 128) :
    idx_main_v3 (ValueIdx.ix2 i k) = ValueIdx.ix2 i (⟨0, Nat.one_pos⟩ : Fin 1) :=
  funext fun a => match a with | ⟨0, _⟩ => rfl | ⟨1, _⟩ => rfl

theorem idx_gram_l (i j : Fin 8192) (k : Fin 128) :
    lidx_main_v6 (ValueIdx.ix2 i j) k = ValueIdx.ix2 i k :=
  funext fun a => match a with | ⟨0, _⟩ => rfl | ⟨1, _⟩ => rfl

theorem idx_gram_r (i j : Fin 8192) (k : Fin 128) :
    idx_main_v5 (ridx_main_v6 (ValueIdx.ix2 i j) k) = ValueIdx.ix2 j k :=
  funext fun a => match a with | ⟨0, _⟩ => rfl | ⟨1, _⟩ => rfl

/-- The raised row norm, at row `i` (the column coordinate of the `[8192, 1]` array is the only one there is). -/
theorem norm_apply (i : Fin 8192) (z : Fin 1) :
    val_main_v2 (F := Ideal) x (ValueIdx.ix2 i z) = nrm (fun p k => x (ValueIdx.ix2 p k)) i := by
  rw [val_main_v2_apply, val_main_v0_apply, val_main_call0_v2_apply, val_main_call0_v1_apply,
    val_main_v1_apply, val_main_cst_apply, val_main_call0_cst_apply]
  simp only [idx_sumsq, val_main_call0_v0_apply]
  show max (Ideal.sqrt (Ideal.ofBits .f32 0x00000000#32 + _)) _ = _
  rw [Ideal.ofBits_zero_f32, zero_add]
  rfl

/-- A scaled entry. -/
theorem xn_apply (i : Fin 8192) (k : Fin 128) :
    val_main_v4 (F := Ideal) x (ValueIdx.ix2 i k) = xn (fun p k => x (ValueIdx.ix2 p k)) i k := by
  rw [val_main_v4_apply, val_main_v3_apply, idx_normcol, norm_apply]
  rfl

/-- The table of inner products of scaled rows. -/
theorem gram_apply (i j : Fin 8192) :
    val_main_v6 (F := Ideal) x (ValueIdx.ix2 i j)
      = ∑ k : Fin 128, xn (fun p k => x (ValueIdx.ix2 p k)) i k * xn (fun p k => x (ValueIdx.ix2 p k)) j k := by
  rw [val_main_v6_apply]
  refine Finset.sum_congr rfl fun k _ => ?_
  rw [val_main_v5_apply, idx_gram_l, idx_gram_r, xn_apply, xn_apply]

end Cert.ReferenceIdeal.RefValue

end
-- ==== Proof.RefIdx.lean ====
/-
  The index pairs of the scatter that sets the diagonal, and where each update lands.

  The index array `[8192, 2]` is two copies of the row counter side by side (the branch that would add 8192 to a
  negative counter never fires, a counter being between 0 and 8191), so its row `j` is `(j, j)`. The scatter has no
  window axes and reads one index pair per update, so update `j` lands on the operand index whose two coordinates
  are the pair's entries read as signed numbers: `(j, j)`.
-/
import proofs.«121959_j55095840473790_1_alg».proof.Proof.Gen.ReferenceIdeal.Read
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic

/-- A row number below 8192, as a 32-bit word read signed, is itself. -/
theorem toInt_ofNat_small (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Such a word is not below zero as a signed number, so the wrap-around of a negative index never fires. -/
theorem slt_zero_small (n : Nat) (h : n < 8192) : (BitVec.ofNat 32 n).slt 0#32 = false := by
  rw [BitVec.slt, toInt_ofNat_small n h]
  simp

/-- The dimension numbers of the scatter that sets the diagonal: no window axes, both operand axes inserted, the index
    vector along the second axis of the `[8192, 2]` index array and naming operand axes 0 and 1. -/
abbrev dS := scatter_S8192x8192_S8192x2_S8192_n_01_01_1

theorem ix1_any (j : Fin 8192) (q : Fin S8192.rank) : ((ValueIdx.ix1 j : S8192.Idx) q).val = j.val :=
  match q with | ⟨0, _⟩ => rfl

theorem sKept_nil : dS.sKept = [] := by decide

theorem window_zero (j : S8192.Idx) (a : Fin S8192x8192.rank) : dS.window j a = 0 := by
  unfold ScatterDims.window
  rw [dif_neg (by rw [sKept_nil]; exact List.not_mem_nil)]

theorem siIdx_val (j : Fin 8192) (c : Fin dS.scatterDimsToOperandDims.length) (b : Fin S8192x2.rank) :
    (dS.siIdx (ValueIdx.ix1 j) c b).val = if b.val = 1 then c.val else j.val := by
  unfold ScatterDims.siIdx
  by_cases hb : b.val = dS.indexVectorDim
  · rw [dif_pos hb, if_pos (show b.val = 1 from hb)]
  · rw [dif_neg hb, if_neg (show ¬ b.val = 1 from hb)]
    unfold ScatterDims.siCoord
    simp only [Fin.val_cast, ix1_any]

theorem siIdx_eq (j : Fin 8192) (c : Fin dS.scatterDimsToOperandDims.length) :
    dS.siIdx (ValueIdx.ix1 j) c = ValueIdx.ix2 j (⟨c.val, c.isLt⟩ : Fin 2) :=
  funext fun b => Fin.ext (by
    rw [siIdx_val]
    match b with
    | ⟨0, _⟩ => rfl
    | ⟨1, _⟩ => rfl)

/-- The start of the window on either operand axis is the index pair's entry for that axis. -/
theorem start_eq (j : Fin 8192) (idx : IVec S8192x2 32) (a : Fin S8192x8192.rank) :
    dS.start (ValueIdx.ix1 j) idx a = (idx (ValueIdx.ix2 j (⟨a.val, a.isLt⟩ : Fin 2))).toInt := by
  have hmem : ∀ a : Fin S8192x8192.rank, a ∈ dS.scatterDimsToOperandDims := by decide
  unfold ScatterDims.start
  rw [dif_pos (hmem a), siIdx_eq]
  match a with
  | ⟨0, _⟩ => rfl
  | ⟨1, _⟩ => rfl

/-! The index pairs: row `j` of the `[8192, 2]` index array is `(j, j)`. -/

theorem iota_wrap (j : Fin 8192) :
    val_main_v12 (F := Ideal) (ValueIdx.ix1 j) = BitVec.ofNat 32 j.val := by
  rw [val_main_v12_apply, val_main_v9_apply, val_main_v7_apply, val_main_v8_apply, val_main_c_apply]
  show Scalar.select (BitVec.ofBool ((BitVec.ofNat 32 j.val).slt 0#32)) _ _ = _
  rw [slt_zero_small _ j.isLt]
  exact ValueIdx.select_zero _ _

theorem iota_wrap' (j : Fin 8192) :
    val_main_v17 (F := Ideal) (ValueIdx.ix1 j) = BitVec.ofNat 32 j.val := by
  rw [val_main_v17_apply, val_main_v14_apply, val_main_v7_apply, val_main_v13_apply, val_main_c_1_apply]
  show Scalar.select (BitVec.ofBool ((BitVec.ofNat 32 j.val).slt 0#32)) _ _ = _
  rw [slt_zero_small _ j.isLt]
  exact ValueIdx.select_zero _ _

theorem idx_col (j : Fin 8192) (z : Fin 1) : idx_main_v18 (ValueIdx.ix2 j z) = ValueIdx.ix1 j :=
  funext fun a => match a with | ⟨0, _⟩ => rfl

theorem idx_col' (j : Fin 8192) (z : Fin 1) : idx_main_v19 (ValueIdx.ix2 j z) = ValueIdx.ix1 j :=
  funext fun a => match a with | ⟨0, _⟩ => rfl

/-- Row `j` of the index array holds `j` in both columns. -/
theorem pairs_apply (j : Fin 8192) (c : Fin 2) :
    val_main_v20 (F := Ideal) (ValueIdx.ix2 j c) = BitVec.ofNat 32 j.val := by
  unfold val_main_v20
  match c with
  | ⟨0, _⟩ =>
    refine (concatenate_pair_apply_left (1 : Fin S8192x2.rank) _ _ concatenates_S8192x1_S8192x1_S8192x2_d1
      (ValueIdx.ix2 j (⟨0, by decide⟩ : Fin 2)) rfl (ValueIdx.ix2 j (⟨0, Nat.one_pos⟩ : Fin 1))
      (fun b => match b with | ⟨0, _⟩ => rfl | ⟨1, _⟩ => rfl)).trans ?_
    rw [val_main_v18_apply, idx_col, iota_wrap]
  | ⟨1, _⟩ =>
    refine (concatenate_pair_apply_right (1 : Fin S8192x2.rank) _ _ concatenates_S8192x1_S8192x1_S8192x2_d1
      (ValueIdx.ix2 j (⟨1, by decide⟩ : Fin 2)) rfl rfl (ValueIdx.ix2 j (⟨0, Nat.one_pos⟩ : Fin 1))
      (fun b hb => match b, hb with | ⟨0, _⟩, _ => rfl | ⟨1, _⟩, hb => absurd rfl hb) rfl).trans ?_
    rw [val_main_v19_apply, idx_col', iota_wrap']

/-- An update whose index pair is `(j, j)` lands on the diagonal entry `(j, j)`. -/
theorem lands (j : Fin 8192) (idx : IVec S8192x2 32)
    (hidx : ∀ c : Fin 2, idx (ValueIdx.ix2 j c) = BitVec.ofNat 32 j.val) :
    dS.resultIdx? (ValueIdx.ix1 j) idx = some (ValueIdx.ix2 j j) := by
  have hs : ∀ a : Fin S8192x8192.rank, dS.start (ValueIdx.ix1 j) idx a + dS.window (ValueIdx.ix1 j) a = (j.val : Int) := fun a => by
    rw [start_eq, window_zero, hidx, toInt_ofNat_small _ j.isLt]; rfl
  unfold ScatterDims.resultIdx?
  rw [dif_pos (fun a => by rw [hs a]; exact ⟨Int.natCast_nonneg _, by
    match a with
    | ⟨0, _⟩ => exact Int.ofNat_lt.2 j.isLt
    | ⟨1, _⟩ => exact Int.ofNat_lt.2 j.isLt⟩)]
  refine congrArg some (funext fun a => Fin.ext ?_)
  show (dS.start (ValueIdx.ix1 j) idx a + dS.window (ValueIdx.ix1 j) a).toNat = _
  rw [hs a]
  match a with
  | ⟨0, _⟩ => rfl
  | ⟨1, _⟩ => rfl

/-- Update `j` of the reference's scatter lands on `(j, j)`. -/
theorem lands_ref (j : Fin 8192) :
    dS.resultIdx? (ValueIdx.ix1 j) (val_main_v20 (F := Ideal)) = some (ValueIdx.ix2 j j) :=
  lands j _ (pairs_apply j)

end Cert.ReferenceIdeal.RefValue

end
-- ==== Proof.RefAdj.lean ====
/-
  The reference's table of inner products with its diagonal set to one, read index by index.

  The scatter writes the word of one at the index pairs (j, j). A diagonal entry (i, i) is met by exactly the one
  update i and so holds one; an entry off the diagonal is met by no update and keeps the inner product of the two
  scaled rows.
-/
import proofs.«121959_j55095840473790_1_alg».proof.Proof.Gen.ReferenceIdeal.Read
import proofs.«121959_j55095840473790_1_alg».proof.Proof.CosineSpec
import proofs.«121959_j55095840473790_1_alg».proof.Proof.LibScatterRead
import proofs.«121959_j55095840473790_1_alg».proof.Proof.RefXn
import proofs.«121959_j55095840473790_1_alg».proof.Proof.RefIdx
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Cert.CosineGraph

variable (x : (⟨S8192x128, .f32⟩ : BufTy).Contents (Elt Ideal))

/-- An update that lands on `(i, j)` is update `i`, and `i = j`. -/
theorem lands_only (i j : Fin 8192) (j' : S8192.Idx)
    (h : dS.resultIdx? j' (val_main_v20 (F := Ideal)) = some (ValueIdx.ix2 i j)) :
    j' = ValueIdx.ix1 i ∧ i = j := by
  obtain ⟨q, rfl⟩ : ∃ q : Fin 8192, j' = ValueIdx.ix1 q := ⟨j' 0, ValueIdx.eq_ix1 j'⟩
  rw [lands_ref q] at h
  have e := Option.some.inj h
  have e0 : q = i := Fin.ext (congrArg (fun f : S8192x8192.Idx => (f 0).val) e)
  have e1 : q = j := Fin.ext (congrArg (fun f : S8192x8192.Idx => (f 1).val) e)
  exact ⟨by rw [e0], e0.symm.trans e1⟩

/-- The table of inner products with its diagonal set to one. -/
theorem adj_apply (i j : Fin 8192) :
    val_main_v22 (F := Ideal) x (ValueIdx.ix2 i j) = adj (fun p k => x (ValueIdx.ix2 p k)) i j := by
  unfold val_main_v22
  by_cases h : i = j
  · subst h
    refine (Host.scatter_apply_of_hit dS (fun _ b => b) _ _ _ (ValueIdx.ix2 i i) (ValueIdx.ix1 i) (lands_ref i)
      (fun j' hj' => (lands_only i i j' hj').1)).trans ?_
    rw [val_main_v21_apply, val_main_cst_3_apply]
    unfold adj
    rw [if_pos rfl]
    rfl
  · refine (Host.scatter_apply_of_miss dS (fun _ b => b) _ _ _ (ValueIdx.ix2 i j)
      (fun j' hj' => h (lands_only i j j' hj').2)).trans ?_
    rw [gram_apply]
    unfold adj
    rw [if_neg h]

end Cert.ReferenceIdeal.RefValue

end
-- ==== Proof.RefHid.lean ====
/-
  The reference's first dense layer with its ramp, read index by index: the product of a row of the input with a
  column of the weights, plus the bias of that column, raised to zero.
-/
import proofs.«121959_j55095840473790_1_alg».proof.Proof.Gen.ReferenceIdeal.Read
import proofs.«121959_j55095840473790_1_alg».proof.Proof.CosineSpec

import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Cert.CosineGraph

variable (x : (⟨S8192x128, .f32⟩ : BufTy).Contents (Elt Ideal))
  (W1 : (⟨S128x256, .f32⟩ : BufTy).Contents (Elt Ideal)) (b1 : (⟨S256, .f32⟩ : BufTy).Contents (Elt Ideal))

theorem idx_dense_l (i : Fin 8192) (c : Fin 256) (k : Fin 128) :
    lidx_main_v23 (ValueIdx.ix2 i c) k = ValueIdx.ix2 i k :=
  funext fun a => match a with | ⟨0, _⟩ => rfl | ⟨1, _⟩ => rfl

theorem idx_dense_r (i : Fin 8192) (c : Fin 256) (k : Fin 128) :
    ridx_main_v23 (ValueIdx.ix2 i c) k = ValueIdx.ix2 k c :=
  funext fun a => match a with | ⟨0, _⟩ => rfl | ⟨1, _⟩ => rfl

theorem idx_bias1 (i : Fin 8192) (c : Fin 256) :
    idx_main_v24 (idx_main_v25 (ValueIdx.ix2 i c)) = ValueIdx.ix1 c :=
  funext fun a => match a with | ⟨0, _⟩ => rfl

/-- The first dense layer with its ramp. -/
theorem hid_apply (i : Fin 8192) (c : Fin 256) :
    val_main_v27 (F := Ideal) x W1 b1 (ValueIdx.ix2 i c)
      = hid (fun p k => x (ValueIdx.ix2 p k)) (fun k c => W1 (ValueIdx.ix2 k c)) (fun c => b1 (ValueIdx.ix1 c)) i c := by
  rw [val_main_v27_apply, val_main_v26_apply, val_main_v23_apply, val_main_v25_apply, val_main_v24_apply,
    val_main_call1_v0_apply, val_main_call1_cst_apply, idx_bias1]
  simp only [idx_dense_l, idx_dense_r]
  show max (_ + _) (Ideal.ofBits .f32 0x00000000#32) = _
  rw [Ideal.ofBits_zero_f32]
  rfl

end Cert.ReferenceIdeal.RefValue

end
-- ==== Proof.RefOut.lean ====
/-
  The reference's aggregation through the full table and its second dense layer, read index by index.
-/
import proofs.«121959_j55095840473790_1_alg».proof.Proof.Gen.ReferenceIdeal.Read
import proofs.«121959_j55095840473790_1_alg».proof.Proof.CosineSpec
import proofs.«121959_j55095840473790_1_alg».proof.Proof.RefAdj
import proofs.«121959_j55095840473790_1_alg».proof.Proof.RefHid
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Cert.CosineGraph

variable (x : (⟨S8192x128, .f32⟩ : BufTy).Contents (Elt Ideal))
  (W1 : (⟨S128x256, .f32⟩ : BufTy).Contents (Elt Ideal)) (b1 : (⟨S256, .f32⟩ : BufTy).Contents (Elt Ideal))
  (W2 : (⟨S256x10, .f32⟩ : BufTy).Contents (Elt Ideal)) (b2 : (⟨S10, .f32⟩ : BufTy).Contents (Elt Ideal))

theorem idx_agg_l (i : Fin 8192) (c : Fin 256) (k : Fin 8192) :
    lidx_main_v28 (ValueIdx.ix2 i c) k = ValueIdx.ix2 i k :=
  funext fun a => match a with | ⟨0, _⟩ => rfl | ⟨1, _⟩ => rfl

theorem idx_agg_r (i : Fin 8192) (c : Fin 256) (k : Fin 8192) :
    ridx_main_v28 (ValueIdx.ix2 i c) k = ValueIdx.ix2 k c :=
  funext fun a => match a with | ⟨0, _⟩ => rfl | ⟨1, _⟩ => rfl

theorem idx_out_l (i : Fin 8192) (o : Fin 10) (k : Fin 256) :
    lidx_main_v29 (ValueIdx.ix2 i o) k = ValueIdx.ix2 i k :=
  funext fun a => match a with | ⟨0, _⟩ => rfl | ⟨1, _⟩ => rfl

theorem idx_out_r (i : Fin 8192) (o : Fin 10) (k : Fin 256) :
    ridx_main_v29 (ValueIdx.ix2 i o) k = ValueIdx.ix2 k o :=
  funext fun a => match a with | ⟨0, _⟩ => rfl | ⟨1, _⟩ => rfl

theorem idx_bias2 (i : Fin 8192) (o : Fin 10) :
    idx_main_v30 (idx_main_v31 (ValueIdx.ix2 i o)) = ValueIdx.ix1 o :=
  funext fun a => match a with | ⟨0, _⟩ => rfl

/-- The aggregation through the full table. -/
theorem agg_apply (i : Fin 8192) (c : Fin 256) :
    val_main_v28 (F := Ideal) x W1 b1 (ValueIdx.ix2 i c)
      = aggR (fun p k => x (ValueIdx.ix2 p k)) (fun k c => W1 (ValueIdx.ix2 k c)) (fun c => b1 (ValueIdx.ix1 c)) i c := by
  rw [val_main_v28_apply]
  unfold aggR
  refine Finset.sum_congr rfl fun k _ => ?_
  rw [idx_agg_l, idx_agg_r, adj_apply, hid_apply]

/-- The second dense layer. -/
theorem out_apply (i : Fin 8192) (o : Fin 10) :
    val_main_v32 (F := Ideal) x W1 b1 W2 b2 (ValueIdx.ix2 i o)
      = outOf (aggR (fun p k => x (ValueIdx.ix2 p k)) (fun k c => W1 (ValueIdx.ix2 k c)) (fun c => b1 (ValueIdx.ix1 c)))
          (fun c o => W2 (ValueIdx.ix2 c o)) (fun o => b2 (ValueIdx.ix1 o)) i o := by
  rw [val_main_v32_apply, val_main_v29_apply, val_main_v31_apply, val_main_v30_apply, idx_bias2]
  simp only [idx_out_l, idx_out_r, agg_apply]
  rfl

/-- The `[8192, 10]` array the host tail starts from, as one function of its index. -/
theorem out_eq :
    val_main_v32 (F := Ideal) x W1 b1 W2 b2
      = fun i => outOf (aggR (fun p k => x (ValueIdx.ix2 p k)) (fun k c => W1 (ValueIdx.ix2 k c)) (fun c => b1 (ValueIdx.ix1 c)))
          (fun c o => W2 (ValueIdx.ix2 c o)) (fun o => b2 (ValueIdx.ix1 o)) (i 0) (i 1) := by
  funext i
  conv_lhs => rw [ValueIdx.eq_ix2 i]
  exact out_apply x W1 b1 W2 b2 (i 0) (i 1)

end Cert.ReferenceIdeal.RefValue

end
-- ==== Proof.RefValue.lean ====
/-
  The reference program read index by index: its result is the host tail (the mean over each group of rows and the
  logarithm of the softmax along each row of the means) applied to the second dense layer of the aggregation through
  the full table of inner products.
-/
import proofs.«121959_j55095840473790_1_alg».proof.Proof.Gen.ReferenceIdeal.Read
import proofs.«121959_j55095840473790_1_alg».proof.Proof.CosineSpec
import proofs.«121959_j55095840473790_1_alg».proof.Proof.RefOut
import Idealize.ShloMosaic.Lib.ValueIdx
import Idealize.ShloMosaic.Lib.Pipeline.Value
import Idealize.ShloMosaic.PureOps.Ideal.Laws
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Cert.CosineGraph

/-- The host tail: the operations of the reference after the `[8192, 10]` array `out`, as one function of that array
    and of the group numbers. The rows of `out` are summed into 64 groups by group number, each sum is divided by the
    size of its group raised to one, and each row of the `[64, 10]` means has the logarithm of its softmax taken (the
    row maximum subtracted first). -/
def tail (out : (⟨S8192x10, .f32⟩ : BufTy).Contents (Elt Ideal)) (batch : (⟨S8192, .i32⟩ : BufTy).Contents (Elt Ideal)) :
    (⟨S64x10, .f32⟩ : BufTy).Contents (Elt Ideal) :=
    subf (subf (Host.divf (F := Ideal) (Host.scatterAdd (F := Ideal) scatter_S64x10_S8192x1_S8192x10_1_0_0_1
      (broadcastInDim S64x10 ![] bcast_S_S64x10 (constant (F := Ideal) S_ .f32 0x00000000#32)) (broadcastInDim
      S8192x1 ![0] bcast_S8192_S8192x1_0 batch) out) (broadcastInDim S64x10 ![0, 1] bcast_S64x1_S64x10_0_1
      (broadcastInDim S64x1 ![0] bcast_S64_S64x1_0 (maximumf (Host.scatterAdd (F := Ideal)
      scatter_S64_S8192x1_S8192_n_0_0_1 (broadcastInDim S64 ![] bcast_S_S64 (constant (F := Ideal) S_ .f32
      0x00000000#32)) (broadcastInDim S8192x1 ![0] bcast_S8192_S8192x1_0 batch) (broadcastInDim S8192 ![]
      bcast_S_S8192 (constant (F := Ideal) S_ .f32 0x3F800000#32))) (broadcastInDim S64 ![] bcast_S_S64 (constant (F
      := Ideal) S_ .f32 0x3F800000#32)))))) (broadcastInDim S64x10 ![0, 1] bcast_S64x1_S64x10_0_1 (broadcastInDim
      S64x1 ![0] bcast_S64_S64x1_0 (maximumf (broadcastInDim S64 ![] bcast_S_S64 (constant (F := Ideal) S_ .f32
      0xFF800000#32)) (Host.reduce (FloatOps.maximumf (F := Ideal)) (Host.divf (F := Ideal) (Host.scatterAdd (F :=
      Ideal) scatter_S64x10_S8192x1_S8192x10_1_0_0_1 (broadcastInDim S64x10 ![] bcast_S_S64x10 (constant (F :=
      Ideal) S_ .f32 0x00000000#32)) (broadcastInDim S8192x1 ![0] bcast_S8192_S8192x1_0 batch) out) (broadcastInDim
      S64x10 ![0, 1] bcast_S64x1_S64x10_0_1 (broadcastInDim S64x1 ![0] bcast_S64_S64x1_0 (maximumf (Host.scatterAdd
      (F := Ideal) scatter_S64_S8192x1_S8192_n_0_0_1 (broadcastInDim S64 ![] bcast_S_S64 (constant (F := Ideal) S_
      .f32 0x00000000#32)) (broadcastInDim S8192x1 ![0] bcast_S8192_S8192x1_0 batch) (broadcastInDim S8192 ![]
      bcast_S_S8192 (constant (F := Ideal) S_ .f32 0x3F800000#32))) (broadcastInDim S64 ![] bcast_S_S64 (constant (F
      := Ideal) S_ .f32 0x3F800000#32)))))) (constant (F := Ideal) S_ .f32 0xFF800000#32) reducesTo_S64x10_S64_d1
      h_S_))))) (broadcastInDim S64x10 ![0, 1] bcast_S64x1_S64x10_0_1 (Host.log (F := Ideal) (broadcastInDim S64x1
      ![0] bcast_S64_S64x1_0 (Host.reduceAdd (F := Ideal) (Host.exp (F := Ideal) (subf (Host.divf (F := Ideal)
      (Host.scatterAdd (F := Ideal) scatter_S64x10_S8192x1_S8192x10_1_0_0_1 (broadcastInDim S64x10 ![]
      bcast_S_S64x10 (constant (F := Ideal) S_ .f32 0x00000000#32)) (broadcastInDim S8192x1 ![0]
      bcast_S8192_S8192x1_0 batch) out) (broadcastInDim S64x10 ![0, 1] bcast_S64x1_S64x10_0_1 (broadcastInDim S64x1
      ![0] bcast_S64_S64x1_0 (maximumf (Host.scatterAdd (F := Ideal) scatter_S64_S8192x1_S8192_n_0_0_1
      (broadcastInDim S64 ![] bcast_S_S64 (constant (F := Ideal) S_ .f32 0x00000000#32)) (broadcastInDim S8192x1
      ![0] bcast_S8192_S8192x1_0 batch) (broadcastInDim S8192 ![] bcast_S_S8192 (constant (F := Ideal) S_ .f32
      0x3F800000#32))) (broadcastInDim S64 ![] bcast_S_S64 (constant (F := Ideal) S_ .f32 0x3F800000#32))))))
      (broadcastInDim S64x10 ![0, 1] bcast_S64x1_S64x10_0_1 (broadcastInDim S64x1 ![0] bcast_S64_S64x1_0 (maximumf
      (broadcastInDim S64 ![] bcast_S_S64 (constant (F := Ideal) S_ .f32 0xFF800000#32)) (Host.reduce
      (FloatOps.maximumf (F := Ideal)) (Host.divf (F := Ideal) (Host.scatterAdd (F := Ideal)
      scatter_S64x10_S8192x1_S8192x10_1_0_0_1 (broadcastInDim S64x10 ![] bcast_S_S64x10 (constant (F := Ideal) S_
      .f32 0x00000000#32)) (broadcastInDim S8192x1 ![0] bcast_S8192_S8192x1_0 batch) out) (broadcastInDim S64x10
      ![0, 1] bcast_S64x1_S64x10_0_1 (broadcastInDim S64x1 ![0] bcast_S64_S64x1_0 (maximumf (Host.scatterAdd (F :=
      Ideal) scatter_S64_S8192x1_S8192_n_0_0_1 (broadcastInDim S64 ![] bcast_S_S64 (constant (F := Ideal) S_ .f32
      0x00000000#32)) (broadcastInDim S8192x1 ![0] bcast_S8192_S8192x1_0 batch) (broadcastInDim S8192 ![]
      bcast_S_S8192 (constant (F := Ideal) S_ .f32 0x3F800000#32))) (broadcastInDim S64 ![] bcast_S_S64 (constant (F
      := Ideal) S_ .f32 0x3F800000#32)))))) (constant (F := Ideal) S_ .f32 0xFF800000#32) reducesTo_S64x10_S64_d1
      h_S_)))))) (constant (F := Ideal) S_ .f32 0x00000000#32) reducesTo_S64x10_S64_d1 h_S_))))

/-- The reference's result is the host tail of its `[8192, 10]` array. -/
theorem tail_eq (x : (⟨S8192x128, .f32⟩ : BufTy).Contents (Elt Ideal)) (batch : (⟨S8192, .i32⟩ : BufTy).Contents (Elt Ideal))
    (W1 : (⟨S128x256, .f32⟩ : BufTy).Contents (Elt Ideal)) (b1 : (⟨S256, .f32⟩ : BufTy).Contents (Elt Ideal))
    (W2 : (⟨S256x10, .f32⟩ : BufTy).Contents (Elt Ideal)) (b2 : (⟨S10, .f32⟩ : BufTy).Contents (Elt Ideal)) :
    val_main_v45 (F := Ideal) x batch W1 b1 W2 b2 = tail (val_main_v32 (F := Ideal) x W1 b1 W2 b2) batch := by
  unfold val_main_v45 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst val_main_v44 val_main_v43 val_main_v42 val_main_v41
    val_main_v40 val_main_cst_7 val_main_v39 val_main_v38 val_main_v37 val_main_cst_6 val_main_v36 val_main_cst_5
    val_main_v35 val_main_v34 val_main_v33 val_main_cst_4 tail
  generalize val_main_v32 (F := Ideal) x W1 b1 W2 b2 = out
  rfl

/-- The reference's result, of its six argument arrays: the host tail of the second dense layer of the aggregation
    through the full table. -/
theorem result_eq (x : (⟨S8192x128, .f32⟩ : BufTy).Contents (Elt Ideal)) (batch : (⟨S8192, .i32⟩ : BufTy).Contents (Elt Ideal))
    (W1 : (⟨S128x256, .f32⟩ : BufTy).Contents (Elt Ideal)) (b1 : (⟨S256, .f32⟩ : BufTy).Contents (Elt Ideal))
    (W2 : (⟨S256x10, .f32⟩ : BufTy).Contents (Elt Ideal)) (b2 : (⟨S10, .f32⟩ : BufTy).Contents (Elt Ideal)) :
    val_main_v45 (F := Ideal) x batch W1 b1 W2 b2
      = tail (fun i => outOf (aggR (fun p k => x (ValueIdx.ix2 p k)) (fun k c => W1 (ValueIdx.ix2 k c)) (fun c => b1 (ValueIdx.ix1 c)))
        (fun c o => W2 (ValueIdx.ix2 c o)) (fun o => b2 (ValueIdx.ix1 o)) (i 0) (i 1)) batch := by
  rw [tail_eq, out_eq]

/-- The same, for the term the reference's run states for its result buffer. -/
theorem result_eq_run (m : (ℓ : Loc nD τ sig) → Buf (Elt Ideal) ℓ) (c : Dev nD) :
    Cert.ReferenceIdeal.Value.res_main_v45 (F := Ideal) m c
      = (fun (x : (⟨S8192x128, .f32⟩ : BufTy).Contents (Elt Ideal)) (batch : (⟨S8192, .i32⟩ : BufTy).Contents (Elt Ideal)) (W1 : (⟨S128x256, .f32⟩ : BufTy).Contents (Elt Ideal)) (b1 : (⟨S256, .f32⟩ : BufTy).Contents (Elt Ideal)) (W2 : (⟨S256x10, .f32⟩ : BufTy).Contents (Elt Ideal)) (b2 : (⟨S10, .f32⟩ : BufTy).Contents (Elt Ideal)) =>
          tail (fun i => outOf (aggR (fun p k => x (ValueIdx.ix2 p k)) (fun k c => W1 (ValueIdx.ix2 k c)) (fun c => b1 (ValueIdx.ix1 c)))
        (fun c o => W2 (ValueIdx.ix2 c o)) (fun o => b2 (ValueIdx.ix1 o)) (i 0) (i 1)) batch)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (val_main_v45_eq (F := Ideal) m c).trans (result_eq _ _ _ _ _ _)

end Cert.ReferenceIdeal.RefValue

end
-- ==== Proof.CosineLaw.lean ====
/-
  The two aggregations agree when every input is a real number.

  With real inputs every row length is a positive real, so the scaled rows `xn` and the ramp layer `hid` are
  real-valued. Over the reals the claim is elementary: the table of inner products with its diagonal set to one is
  the table of inner products plus a diagonal correction `1 - ‖a_i‖²`, and multiplying the plain table into `h` is
  the same as first forming `aᵀ h` and then multiplying by `a` (exchange of two finite sums). Summing tile by tile
  over eight tiles of 1024 rows is summing over all 8192 rows.
-/
import proofs.«121959_j55095840473790_1_alg».proof.Proof.CosineSpec
import Mathlib.Algebra.BigOperators.Fin
import Mathlib.Algebra.BigOperators.Ring.Finset
import Mathlib.Data.EReal.Operations

noncomputable section

namespace Cert.CosineGraph

open Idealize.ShloMosaic

/-! ### The law over the reals, for any finite index types -/

section RealLaw

variable {ι κ : Type*} [Fintype ι] [DecidableEq ι] [Fintype κ]

/-- Multiplying the inner-product table with unit diagonal into `h` equals going through `aᵀ h` and correcting
    the diagonal term. -/
theorem real_law (a : ι → κ → ℝ) (h : ι → ℝ) (i : ι) :
    ∑ j, (if i = j then 1 else ∑ k, a i k * a j k) * h j
      = ∑ k, a i k * (∑ j, a j k * h j) + (1 - ∑ k, a i k * a i k) * h i := by
  have hsplit : ∀ j, (if i = j then (1 : ℝ) else ∑ k, a i k * a j k) * h j
      = (∑ k, a i k * a j k) * h j + (if i = j then (1 - ∑ k, a i k * a i k) * h i else 0) := by
    intro j
    by_cases hij : i = j
    · subst hij; simp only [if_true]; ring
    · simp only [if_neg hij, add_zero]
  rw [Finset.sum_congr rfl (fun j _ => hsplit j), Finset.sum_add_distrib, Finset.sum_ite_eq, if_pos (Finset.mem_univ i)]
  congr 1
  have : ∀ j, (∑ k, a i k * a j k) * h j = ∑ k, a i k * (a j k * h j) := by
    intro j; rw [Finset.sum_mul]; exact Finset.sum_congr rfl (fun k _ => by ring)
  rw [Finset.sum_congr rfl (fun j _ => this j), Finset.sum_comm]
  exact Finset.sum_congr rfl (fun k _ => by rw [Finset.mul_sum])

end RealLaw

/-! ### Tiles -/

/-- Pairs (tile, row in tile) are the rows. -/
def tileEquiv : Fin 8 × Fin 1024 ≃ Fin 8192 where
  toFun p := row p.1 p.2
  invFun i := (⟨i.val / 1024, by omega⟩, ⟨i.val % 1024, by omega⟩)
  left_inv p := by
    rcases p with ⟨⟨t, ht⟩, ⟨j, hj⟩⟩
    refine Prod.ext (Fin.ext ?_) (Fin.ext ?_)
    · show (1024 * t + j) / 1024 = t
      omega
    · show (1024 * t + j) % 1024 = j
      omega
  right_inv i := by
    refine Fin.ext ?_
    show 1024 * (i.val / 1024) + i.val % 1024 = i.val
    omega

/-- Summing tile by tile is summing over all rows. -/
theorem sum_tiles {M : Type*} [AddCommMonoid M] (f : Fin 8192 → M) :
    ∑ t : Fin 8, ∑ j : Fin 1024, f (row t j) = ∑ i : Fin 8192, f i :=
  (Fintype.sum_prod_type' (fun t j => f (row t j))).symm.trans (Equiv.sum_comp tileEquiv f)

/-! ### Real numbers inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with `max`. -/
theorem coe_max (a b : ℝ) : ((max a b : ℝ) : EReal) = max (a : EReal) (b : EReal) :=
  EReal.coe_strictMono.monotone.map_max

/-- The threshold is a positive real. -/
theorem eps_real : ∃ e : ℝ, 0 < e ∧ eps = (e : EReal) := by
  unfold eps
  refine ⟨_, ?_, by simp [Ideal.ofBits, Ideal.ieee, -EReal.coe_mul]; rfl⟩
  positivity

/-- The word of 1 is the real 1. -/
theorem one_real : one = ((1 : ℝ) : EReal) := by
  unfold one
  simp [Ideal.ofBits, Ideal.ieee, -EReal.coe_mul]; norm_num

section Layers

variable (x : Fin 8192 → Fin 128 → EReal) (W1 : Fin 128 → Fin 256 → EReal) (b1 : Fin 256 → EReal)

/-- Once the scaled rows and the ramp layer are real-valued, the two aggregations agree. -/
theorem aggK_eq_aggR_of_real (a : Fin 8192 → Fin 128 → ℝ) (h : Fin 8192 → Fin 256 → ℝ)
    (hxn : ∀ i k, xn x i k = (a i k : EReal)) (hhid : ∀ i c, hid x W1 b1 i c = (h i c : EReal)) :
    aggK x W1 b1 = aggR x W1 b1 := by
  funext i c
  have ht : ∀ k, tsum x W1 b1 k c = ((∑ j, a j k * h j c : ℝ) : EReal) := by
    intro k
    unfold tsum
    refine (sum_tiles (fun j => xn x j k * hid x W1 b1 j c)).trans ?_
    rw [coe_sum]
    exact Finset.sum_congr rfl (fun j _ => by rw [hxn, hhid, EReal.coe_mul])
  have hd : diag x i = ((∑ k, a i k * a i k : ℝ) : EReal) := by
    unfold diag
    rw [coe_sum]
    exact Finset.sum_congr rfl (fun k _ => by rw [hxn, EReal.coe_mul])
  have hK : aggK x W1 b1 i c
      = ((∑ k, a i k * (∑ j, a j k * h j c) + (1 - ∑ k, a i k * a i k) * h i c : ℝ) : EReal) := by
    unfold aggK
    rw [hd, hhid, one_real, ← EReal.coe_sub, ← EReal.coe_mul, EReal.coe_add]
    congr 1
    rw [coe_sum]
    exact Finset.sum_congr rfl (fun k _ => by rw [hxn, ht, EReal.coe_mul])
  have hR : aggR x W1 b1 i c
      = ((∑ j, (if i = j then 1 else ∑ k, a i k * a j k) * h j c : ℝ) : EReal) := by
    unfold aggR adj
    rw [coe_sum]
    refine Finset.sum_congr rfl (fun j _ => ?_)
    rw [hhid, EReal.coe_mul]
    congr 1
    by_cases hij : i = j
    · rw [if_pos hij, if_pos hij]; exact one_real
    · rw [if_neg hij, if_neg hij, coe_sum]
      exact Finset.sum_congr rfl (fun k _ => by rw [hxn, hxn, EReal.coe_mul])
  rw [hK, hR, real_law]

/-- With real entries a row length is a positive real. -/
theorem nrm_real (xr : Fin 8192 → Fin 128 → ℝ) (hxr : ∀ i k, x i k = (xr i k : EReal)) (i : Fin 8192) :
    ∃ n : ℝ, 0 < n ∧ nrm x i = (n : EReal) := by
  obtain ⟨e, he, hee⟩ := eps_real
  refine ⟨max (Real.sqrt (∑ k, xr i k * xr i k)) e, lt_max_of_lt_right he, ?_⟩
  have hs : (∑ k, x i k * x i k) = ((∑ k, xr i k * xr i k : ℝ) : EReal) := by
    rw [coe_sum]
    exact Finset.sum_congr rfl (fun k _ => by rw [hxr, EReal.coe_mul])
  unfold nrm
  rw [hs, Ideal.sqrt_coe, if_neg (not_lt.mpr (Finset.sum_nonneg (fun k _ => mul_self_nonneg _))), hee, coe_max]

/-- The two aggregations agree on real inputs. -/
theorem aggK_eq_aggR
    (hx : ∀ i k, ∃ r : ℝ, x i k = (r : EReal)) (hW : ∀ k c, ∃ r : ℝ, W1 k c = (r : EReal))
    (hb : ∀ c, ∃ r : ℝ, b1 c = (r : EReal)) :
    aggK x W1 b1 = aggR x W1 b1 := by
  choose xr hxr using hx
  choose wr hwr using hW
  choose br hbr using hb
  choose n hn hnn using nrm_real x xr hxr
  refine aggK_eq_aggR_of_real x W1 b1 (fun i k => xr i k * (1 / n i))
    (fun i c => max ((∑ k, xr i k * wr k c) + br c) 0) ?_ ?_
  · intro i k
    unfold xn
    rw [hnn i, Ideal.div_coe (ne_of_gt (hn i)), hxr, EReal.coe_mul]
  · intro i c
    unfold hid
    rw [coe_max, EReal.coe_add, coe_sum, EReal.coe_zero, hbr]
    congr 2
    exact Finset.sum_congr rfl (fun k _ => by rw [hxr, hwr, EReal.coe_mul])

end Layers

end Cert.CosineGraph

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  The precondition "every float input is finite" makes every entry of every float input a real number.

  The precondition is a conjunction, by `and`, of five tests, one per float input: the comparison of the
  input's absolute value with `+inf`, reduced over all axes by `and`. A conjunction that is true has each conjunct true,
  and a true test says each entry's absolute value is below `+inf`, which leaves a real number.
-/
import proofs.«121959_j55095840473790_1_alg».proof.Pre_finite_inputs
import proofs.«121959_j55095840473790_1_alg».proof.Proof.LibFiniteAll

noncomputable section

namespace Cert.CosineGraph

open Idealize.ShloMosaic Cert.Pre_finite_inputs

/-- If the finiteness test of the six inputs is true, every entry of the five float inputs is a real number. -/
theorem inputs_real [Cert.Pre_finite_inputs.Facts]
    (a0 : FVec Ideal S8192x128 .f32) (a1 : IVec S8192 32) (a2 : FVec Ideal S128x256 .f32)
    (a3 : FVec Ideal S256 .f32) (a4 : FVec Ideal S256x10 .f32) (a5 : FVec Ideal S10 .f32)
    (h : Cert.Pre_finite_inputs.fn (F := Ideal) a0 a1 a2 a3 a4 a5 = (fun _ => 1#1)) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨FiniteAll.all_real a0 _ _ _ _ h1, FiniteAll.all_real a2 _ _ _ _ h2, FiniteAll.all_real a3 _ _ _ _ h3,
    FiniteAll.all_real a4 _ _ _ _ h4, FiniteAll.all_real a5 _ _ _ _ h5⟩

end Cert.CosineGraph

end
-- ==== Proof.KTail.lean ====
/-
  The host operations that follow the two kernel regions, as one function.

  After its kernels the program averages the rows of the [8192, 10] result over 64 groups given by an index
  vector — a sum of rows scattered by group, divided by the group's size (a scattered count of ones, at least
  one) — and then subtracts, row by row, the logarithm of the sum of exponentials (after subtracting the row's
  maximum). The function below is exactly that chain of operations; it is never opened.
-/
import proofs.«121959_j55095840473790_1_alg».proof.Proof.Gen.KernelIdeal.Launch
import Idealize.ShloMosaic.Lib.StableHlo.Run
import Idealize.ShloMosaic.PureOps.Ideal

noncomputable section

namespace Cert.KernelIdeal.HandValue

open Idealize.ShloMosaic Idealize.ShloMosaic.TcCoe Idealize.SL.Sem Idealize.ShloMosaic.StableHlo
open Cert.KernelIdeal Cert.KernelIdeal.Facts₀ Cert.KernelIdeal.Facts

/-- The mean of the rows of each group: the scattered sum of rows divided by the scattered count (at least one). -/
def segMean (out : (⟨S8192x10, .f32⟩ : BufTy).Contents (Elt Ideal)) (batch : (⟨S8192, .i32⟩ : BufTy).Contents (Elt Ideal)) :
    (⟨S64x10, .f32⟩ : BufTy).Contents (Elt Ideal) :=
  Host.divf (F := Ideal)
    (Host.scatterAdd (F := Ideal) scatter_S64x10_S8192x1_S8192x10_1_0_0_1
      (broadcastInDim S64x10 ![] bcast_S_S64x10 (constant (F := Ideal) S_ .f32 0x00000000#32))
      (broadcastInDim S8192x1 ![0] bcast_S8192_S8192x1_0 batch) out)
    (broadcastInDim S64x10 ![0, 1] bcast_S64x1_S64x10_0_1
      (broadcastInDim S64x1 ![0] bcast_S64_S64x1_0
        (maximumf (F := Ideal)
          (Host.scatterAdd (F := Ideal) scatter_S64_S8192x1_S8192_n_0_0_1
            (broadcastInDim S64 ![] bcast_S_S64 (constant (F := Ideal) S_ .f32 0x00000000#32))
            (broadcastInDim S8192x1 ![0] bcast_S8192_S8192x1_0 batch)
            (broadcastInDim S8192 ![] bcast_S_S8192 (constant (F := Ideal) S_ .f32 0x3F800000#32)))
          (broadcastInDim S64 ![] bcast_S_S64 (constant (F := Ideal) S_ .f32 0x3F800000#32)))))

/-- A row minus its maximum. -/
def rowShift (v : (⟨S64x10, .f32⟩ : BufTy).Contents (Elt Ideal)) : (⟨S64x10, .f32⟩ : BufTy).Contents (Elt Ideal) :=
  subf (F := Ideal) v
    (broadcastInDim S64x10 ![0, 1] bcast_S64x1_S64x10_0_1
      (broadcastInDim S64x1 ![0] bcast_S64_S64x1_0
        (maximumf (F := Ideal)
          (broadcastInDim S64 ![] bcast_S_S64 (constant (F := Ideal) S_ .f32 0xFF800000#32))
          (Host.reduce (FloatOps.maximumf (F := Ideal)) v (constant (F := Ideal) S_ .f32 0xFF800000#32)
            reducesTo_S64x10_S64_d1 h_S_))))

/-- Row by row: the row minus its maximum, minus the logarithm of the sum of its exponentials. -/
def logSoftmaxRows (v : (⟨S64x10, .f32⟩ : BufTy).Contents (Elt Ideal)) : (⟨S64x10, .f32⟩ : BufTy).Contents (Elt Ideal) :=
  subf (F := Ideal) (rowShift v)
    (broadcastInDim S64x10 ![0, 1] bcast_S64x1_S64x10_0_1
      (Host.log (F := Ideal)
        (broadcastInDim S64x1 ![0] bcast_S64_S64x1_0
          (Host.reduceAdd (F := Ideal) (Host.exp (F := Ideal) (rowShift v)) (constant (F := Ideal) S_ .f32 0x00000000#32)
            reducesTo_S64x10_S64_d1 h_S_))))

/-- The whole chain after the kernel regions: the group means, then the row-wise logarithmic normalisation. -/
def tailK (out : (⟨S8192x10, .f32⟩ : BufTy).Contents (Elt Ideal)) (batch : (⟨S8192, .i32⟩ : BufTy).Contents (Elt Ideal)) :
    (⟨S64x10, .f32⟩ : BufTy).Contents (Elt Ideal) :=
  logSoftmaxRows (segMean out batch)

/-- The first stretch leaves the group means. -/
theorem segMean_eq (W : Valuation τ sig (Elt Ideal)) :
    StableHlo.after (Gen.hostOps2 (F := Ideal)) W (Proc.devRef .tc main_v13)
      = segMean (W (Proc.devRef .tc main_v1)) (W (Proc.devRef .tc main_arg1)) := by
  after_results
  rfl

/-- The second stretch normalises what the first left. -/
theorem logSoftmaxRows_eq (V : Valuation τ sig (Elt Ideal)) :
    StableHlo.after (Gen.hostOps2_1 (F := Ideal)) V (Proc.devRef .tc main_v14)
      = logSoftmaxRows (V (Proc.devRef .tc main_v13)) := by
  after_results
  rfl

/-- The two stretches of host operations leave, in the result buffer, the chain applied to the kernels' result and
    the index vector. -/
theorem tail_eq (W : Valuation τ sig (Elt Ideal)) :
    StableHlo.after (Gen.hostOps2_1 (F := Ideal)) (StableHlo.after (Gen.hostOps2 (F := Ideal)) W)
        (Proc.devRef .tc main_v14)
      = tailK (W (Proc.devRef .tc main_v1)) (W (Proc.devRef .tc main_arg1)) := by
  rw [logSoftmaxRows_eq, segMean_eq]
  rfl

end Cert.KernelIdeal.HandValue

end
-- ==== Proof.KTailEq.lean ====
/-
  The chain of host operations after the kernel regions is the reference program's host tail: the two programs
  print the same operations over their own copies of the same shape relations and scatter dimension records.
-/
import proofs.«121959_j55095840473790_1_alg».proof.Proof.KTail
import proofs.«121959_j55095840473790_1_alg».proof.Proof.RefValue

noncomputable section

namespace Cert.KernelIdeal.HandValue

open Idealize.ShloMosaic

/-- The row-scatter dimension records of the two programs are the same record. -/
theorem scatRows_eq :
    Cert.KernelIdeal.scatter_S64x10_S8192x1_S8192x10_1_0_0_1 = Cert.ReferenceIdeal.scatter_S64x10_S8192x1_S8192x10_1_0_0_1 := rfl

/-- The count-scatter dimension records of the two programs are the same record. -/
theorem scatCount_eq :
    Cert.KernelIdeal.scatter_S64_S8192x1_S8192_n_0_0_1 = Cert.ReferenceIdeal.scatter_S64_S8192x1_S8192_n_0_0_1 := rfl

/-- The kernel program's host chain and the reference's host tail are the same function. -/
theorem tailK_eq_tail (out : (⟨Cert.KernelIdeal.S8192x10, .f32⟩ : BufTy).Contents (Elt Ideal))
    (batch : (⟨Cert.KernelIdeal.S8192, .i32⟩ : BufTy).Contents (Elt Ideal)) :
    tailK out batch = Cert.ReferenceIdeal.RefValue.tail out batch := by
  unfold tailK logSoftmaxRows rowShift segMean Cert.ReferenceIdeal.RefValue.tail
  rw [scatRows_eq, scatCount_eq]

end Cert.KernelIdeal.HandValue

end
-- ==== Proof.FrameBase.lean ====
/-
  What the two kernel regions' runs share: each window's block at a grid point read off the arrays as a region
  finds them, the condition "this is the first grid point" of the first kernel in closed form, the staging and
  scratch memrefs the bodies are called with, and the first region's scoped rest with its accumulator split off.
-/
import proofs.«121959_j55095840473790_1_alg».proof.Proof.Gen.KernelIdeal.Launch
import proofs.«121959_j55095840473790_1_alg».proof.Proof.Gen.KernelIdeal.Skeleton
import proofs.«121959_j55095840473790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch: taken at the first grid point only -/

/-- The condition of the first kernel's `scf.if` (zero the accumulator), from the grid coordinate. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## The memrefs the bodies are called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
/-- The accumulator: a whole scoped buffer of the first kernel's own. -/
abbrev scM0 : Memref sig .tc .vmem S128x256 .f32 := Memref.whole cc0_scratch0
/-- Views through which the accumulator's and the first kernel's output's contents are stated. -/
abbrev VS0 : View sig .tc .vmem S128x256 .f32 := scM0.view
abbrev VO0 : View sig .tc .vmem S128x256 .f32 := (Memref.whole cc0_stg3_0 : Memref sig .tc .vmem S128x256 .f32).view

/-- The scoped buffers of the core that are neither staging buffers of the first region nor its accumulator. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The first region's class invariant with the accumulator as a memref owned at some contents. -/
theorem PhiA0_eq (c : Dev nD) :
    (Pipeline.ΦA spec0 c : sProp 𝕄)
      = iprop(iprop((∃ d, owns (c : Thread nD τ) scM0 fullShare d) ∗ restScoped0 c) ∗ (∃ r, prngReg c r)) := by
  unfold Pipeline.ΦA restScoped0; rw [scopedRest0_eq]; simp only [scM0, owns_whole]; try rfl

end Cert.KernelIdeal.Hand

end
-- ==== Proof.Run0A.lean ====
/-
  The first kernel's body at the first grid point (the accumulator is zeroed, then the tile's product added and the
  accumulator copied to the output block): its run on whole staging memrefs, the pieces its stores leave in the
  output block and in the accumulator found by the run.
-/
import proofs.«121959_j55095840473790_1_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point: the inputs' memrefs at their contents, the output's and the accumulator's at anything;
    the body runs to the continuation holding the inputs' as they were and the output's and the accumulator's with
    their pieces written. -/
noncomputable def kernelRun0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__k1_kernel i arg1 harg1 arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.Run0B.lean ====
/-
  The first kernel's body at a later grid point (the tile's product is added to what the point before
  left in the accumulator, and the accumulator copied to the output block): its run on whole staging memrefs, the pieces its stores leave in the
  output block and in the accumulator found by the run.
-/
import proofs.«121959_j55095840473790_1_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later grid point: the inputs' memrefs at their contents, the accumulator's at what the point before left, the output's at anything;
    the body runs to the continuation holding the inputs' as they were and the output's and the accumulator's with
    their pieces written. -/
noncomputable def kernelRun0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__k1_kernel i arg1 harg1 arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.Region0.lean ====
/-
  The first region (the small matrix xnᵀ·hid accumulated over the eight tiles) at the contents `V` the region finds
  in the core's arrays: what its output block and its accumulator hold after each grid point (at the first point the
  first case's pieces, afterwards the second case's over what the point before left in the accumulator), the region's
  invariant (the accumulator owned at those contents between points), the proof data and the body obligation.
-/
import proofs.«121959_j55095840473790_1_alg».proof.Proof.Run0A
import proofs.«121959_j55095840473790_1_alg».proof.Proof.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem cover0_A_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) (y : S128x256.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S128x256.size (by sl_kernel_rfl) y
/-- What the first case leaves in the output block: its pieces read back. -/
def out0_A_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) : Vec F S128x256 .f32 :=
  VO0.read (Elt F) (VO0.writes (Elt F) VO0.junk (kernelRun0_A c i arg1 harg1 arg2 harg2 arg3 harg3 arg4 harg4 arg5 harg5 hc0 x0 x1 x2).1)
theorem scover0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) (y : S128x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S128x256.size (by sl_kernel_rfl) y
/-- What the first case leaves in the accumulator. -/
def sout0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) : Vec F S128x256 .f32 :=
  VS0.read (Elt F) (VS0.writes (Elt F) VS0.junk (kernelRun0_A c i arg1 harg1 arg2 harg2 arg3 harg3 arg4 harg4 arg5 harg5 hc0 x0 x1 x2).2.1)

theorem cover0_B_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) (y : S128x256.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S128x256.size (by sl_kernel_rfl) y
/-- What the second case leaves in the output block. -/
def out0_B_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) : Vec F S128x256 .f32 :=
  VO0.read (Elt F) (VO0.writes (Elt F) VO0.junk (kernelRun0_B c i arg1 harg1 arg2 harg2 arg3 harg3 arg4 harg4 arg5 harg5 hc0 x0 x1 x2 xs0).1)
theorem scover0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) (y : S128x256.Idx) :
    ∃ pc ∈ (kernelRun0_B c i arg1 harg1 arg2 harg2 arg3 harg3 arg4 harg4 arg5 harg5 hc0 x0 x1 x2 xs0).2.1, y ∈ pc.1.set :=
  View.cover_of_tiledL (kernelRun0_B c i arg1 harg1 arg2 harg2 arg3 harg3 arg4 harg4 arg5 harg5 hc0 x0 x1 x2 xs0).2.1 S128x256.size (by sl_kernel_rfl) y
/-- What the second case leaves in the accumulator. -/
def sout0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) : Vec F S128x256 .f32 :=
  VS0.read (Elt F) (VS0.writes (Elt F) VS0.junk (kernelRun0_B c i arg1 harg1 arg2 harg2 arg3 harg3 arg4 harg4 arg5 harg5 hc0 x0 x1 x2 xs0).2.1)

/-! ## The accumulation -/

/-- What the output block and the accumulator hold after the body at position `n`. -/
def outsAt0 (c : Dev nD) : (n : ℕ) → n < cfg0.N → Vec F S128x256 .f32 × Vec F S128x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩))
  | n + 1, hn => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) (iblk0 V c 2 t),
      sout0_A c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) (iblk0 V c 2 t)) := by
  obtain ⟨n, hn⟩ := t
  cases n with
  | zero => rfl
  | succ n => exact absurd h0 (Nat.succ_ne_zero n)

theorem outsAt0_B (c : Dev nD) (t : Fin cfg0.N) (h0 : t.val ≠ 0) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (iblk0 V c 2 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => rfl

/-- The region's invariant before position `n`: before the first point the class's; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restScoped0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ restScoped0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ restScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point: at the first point the invariant hands the accumulator at anything and the first case runs;
    afterwards it hands it at what the point before left and the second case runs; either way it is taken back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases hz : t.val = 0
  · rw [outsAt0_A V c t hz]
    unfold out0_A_3 sout0_A; (try dsimp only)
    rw [PhiS_castSucc V c t, PhiS_zero V c _ _ hz, PhiA0_eq]
    iintro ⟨⟨⟨HS0, HR⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr hz) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _)
  · rw [outsAt0_B V c t hz]
    unfold out0_B_3 sout0_B; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_B c (grid0.coords t) _ _ _ _ _ _ _ _ _ _ (fun h => hz ((hcond0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HR⟩, Hg⟩
  isplitl [HS0 HR]
  · isplitl [HS0]
    · iexists _; iexact HS0
    iexact HR
  iexact Hg

end

end Cert.KernelIdeal.Hand

end
-- ==== Proof.Run1.lean ====
/-
  The second kernel's body (one tile of rows of the result from the tile of x, the two weight matrices, the two
  bias vectors and the small matrix the first kernel left): its run on whole staging memrefs, the piece its one
  store leaves in the output block found by the run.
-/
import proofs.«121959_j55095840473790_1_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The inputs' memrefs at their contents, the output's at anything; the body runs to the continuation holding the
    inputs' as they were and the output's with its piece written. -/
noncomputable def kernelRun1 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) :
    { L6 : List (View.Piece (Elt F) S1024x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)) -∗ K ⟨⟩))
          ⊢ wp frame (wpE (defs₀ (F := F)) Variants.none c none) E (cc1__k2_kernel i arg1 harg1 arg2 harg2 arg3 harg3 arg4 harg4 arg5 harg5 arg6 harg6 arg7 harg7) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.Region1.lean ====
/-
  The second region (each tile of rows of the result, from the tile of x, the weights, the biases and the small matrix
  the first region left) at the contents `V` the region finds in the core's arrays: what its output block holds after
  each grid point, the proof data and the body obligation. Nothing is carried between grid points.
-/
import proofs.«121959_j55095840473790_1_alg».proof.Proof.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x10 .f32 := win1_6.stage (cfg1.slots t 6)
abbrev hs1_6 (t : Fin cfg1.N) : (ms1_6 t).IsWhole := hstage1_6 ((cfg1.slots t 6).cast nbuf1_6)

/-- A view through which the output block's contents are stated. -/
abbrev VO1 : View sig .tc .vmem S1024x10 .f32 := (Memref.whole cc1_stg6_0 : Memref sig .tc .vmem S1024x10 .f32).view

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem cover1_6 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) (y : S1024x10.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S1024x10.size (by sl_kernel_rfl) y
/-- What the body leaves in the output block: its piece read back. -/
def out1_6 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) : Vec F S1024x10 .f32 :=
  VO1.read (Elt F) (VO1.writes (Elt F) VO1.junk (kernelRun1 c i arg1 harg1 arg2 harg2 arg3 harg3 arg4 harg4 arg5 harg5 arg6 harg6 arg7 harg7 x0 x1 x2 x3 x4 x5).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KRun.lean ====
/-
  The whole run of the program: the two kernel regions one after the other, then the two stretches of host operations
  (the grouped mean over the batch ids, then the row-wise log of the normalised exponentials). The contents of every
  unscoped buffer of a core are followed from the launch through the four items; each region changes only its output
  array, to what its write-backs leave; the argument arrays reach the end as launched.
-/
import proofs.«121959_j55095840473790_1_alg».proof.Proof.Region0
import proofs.«121959_j55095840473790_1_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its output array at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the first stretch of host operations, and after the second (the end). -/
abbrev W3 : Dev nD → Valuation τ sig (Elt F) := fun c => StableHlo.after hostOps2 (W2 m ρ c)
abbrev W4 : Dev nD → Valuation τ sig (Elt F) := fun c => StableHlo.after hostOps2_1 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat1 (V1 m ρ) c).arrAt_in 5 rfl _).trans (A_eq1 (V1 m ρ) c 5))
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_noFresh : (hostOps2 : List (HloOp τ sig (Elt F))).Forall fun op => op.fresh = ∅ := by
  simp only [List.Forall]; repeat' constructor
theorem hostOps2_1_noFresh : (hostOps2_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_noFresh (W2 m ρ)),
    .host (hseg hostOps2_1 hostOps2_1_sub hostOps2_1_noFresh (W3 m ρ)) ]

set_option backward.isDefEq.respectTransparency.types false in
/-- Every weakly fair execution of the program terminates, nothing faulting, and in every final state each unscoped
    buffer of each core holds the contents followed above to the end. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.Hand

end
-- ==== Proof.BitsFrameBase.lean ====
/-
  What the two kernel regions' runs share: each window's block at a grid point read off the arrays as a region
  finds them, the condition "this is the first grid point" of the first kernel in closed form, the staging and
  scratch memrefs the bodies are called with, and the first region's scoped rest with its accumulator split off.
-/
import proofs.«121959_j55095840473790_1_alg».proof.Proof.Gen.Kernel.Launch
import proofs.«121959_j55095840473790_1_alg».proof.Proof.Gen.Kernel.Skeleton
import proofs.«121959_j55095840473790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's branch: taken at the first grid point only -/

/-- The condition of the first kernel's `scf.if` (zero the accumulator), from the grid coordinate. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## The memrefs the bodies are called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
/-- The accumulator: a whole scoped buffer of the first kernel's own. -/
abbrev scM0 : Memref sig .tc .vmem S128x256 .f32 := Memref.whole cc0_scratch0
/-- Views through which the accumulator's and the first kernel's output's contents are stated. -/
abbrev VS0 : View sig .tc .vmem S128x256 .f32 := scM0.view
abbrev VO0 : View sig .tc .vmem S128x256 .f32 := (Memref.whole cc0_stg3_0 : Memref sig .tc .vmem S128x256 .f32).view

/-- The scoped buffers of the core that are neither staging buffers of the first region nor its accumulator. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The first region's class invariant with the accumulator as a memref owned at some contents. -/
theorem PhiA0_eq (c : Dev nD) :
    (Pipeline.ΦA spec0 c : sProp 𝕄)
      = iprop(iprop((∃ d, owns (c : Thread nD τ) scM0 fullShare d) ∗ restScoped0 c) ∗ (∃ r, prngReg c r)) := by
  unfold Pipeline.ΦA restScoped0; rw [scopedRest0_eq]; simp only [scM0, owns_whole]; try rfl

end Cert.Kernel.Hand

end
-- ==== Proof.BitsRun0A.lean ====
/-
  The first kernel's body at the first grid point (the accumulator is zeroed, then the tile's product added and the
  accumulator copied to the output block): its run on whole staging memrefs, the pieces its stores leave in the
  output block and in the accumulator found by the run.
-/
import proofs.«121959_j55095840473790_1_alg».proof.Proof.BitsFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point: the inputs' memrefs at their contents, the output's and the accumulator's at anything;
    the body runs to the continuation holding the inputs' as they were and the output's and the accumulator's with
    their pieces written. -/
noncomputable def kernelRun0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__k1_kernel i arg1 harg1 arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.BitsRun0B.lean ====
/-
  The first kernel's body at a later grid point (the tile's product is added to what the point before
  left in the accumulator, and the accumulator copied to the output block): its run on whole staging memrefs, the pieces its stores leave in the
  output block and in the accumulator found by the run.
-/
import proofs.«121959_j55095840473790_1_alg».proof.Proof.BitsFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later grid point: the inputs' memrefs at their contents, the accumulator's at what the point before left, the output's at anything;
    the body runs to the continuation holding the inputs' as they were and the output's and the accumulator's with
    their pieces written. -/
noncomputable def kernelRun0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__k1_kernel i arg1 harg1 arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.BitsRegion0.lean ====
/-
  The first region (the small matrix xnᵀ·hid accumulated over the eight tiles) at the contents `V` the region finds
  in the core's arrays: what its output block and its accumulator hold after each grid point (at the first point the
  first case's pieces, afterwards the second case's over what the point before left in the accumulator), the region's
  invariant (the accumulator owned at those contents between points), the proof data and the body obligation.
-/
import proofs.«121959_j55095840473790_1_alg».proof.Proof.BitsRun0A
import proofs.«121959_j55095840473790_1_alg».proof.Proof.BitsRun0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem cover0_A_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) (y : S128x256.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S128x256.size (by sl_kernel_rfl) y
/-- What the first case leaves in the output block: its pieces read back. -/
def out0_A_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) : Vec F S128x256 .f32 :=
  VO0.read (Elt F) (VO0.writes (Elt F) VO0.junk (kernelRun0_A c i arg1 harg1 arg2 harg2 arg3 harg3 arg4 harg4 arg5 harg5 hc0 x0 x1 x2).1)
theorem scover0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) (y : S128x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S128x256.size (by sl_kernel_rfl) y
/-- What the first case leaves in the accumulator. -/
def sout0_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) : Vec F S128x256 .f32 :=
  VS0.read (Elt F) (VS0.writes (Elt F) VS0.junk (kernelRun0_A c i arg1 harg1 arg2 harg2 arg3 harg3 arg4 harg4 arg5 harg5 hc0 x0 x1 x2).2.1)

theorem cover0_B_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) (y : S128x256.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S128x256.size (by sl_kernel_rfl) y
/-- What the second case leaves in the output block. -/
def out0_B_3 (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) : Vec F S128x256 .f32 :=
  VO0.read (Elt F) (VO0.writes (Elt F) VO0.junk (kernelRun0_B c i arg1 harg1 arg2 harg2 arg3 harg3 arg4 harg4 arg5 harg5 hc0 x0 x1 x2 xs0).1)
theorem scover0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) (y : S128x256.Idx) :
    ∃ pc ∈ (kernelRun0_B c i arg1 harg1 arg2 harg2 arg3 harg3 arg4 harg4 arg5 harg5 hc0 x0 x1 x2 xs0).2.1, y ∈ pc.1.set :=
  View.cover_of_tiledL (kernelRun0_B c i arg1 harg1 arg2 harg2 arg3 harg3 arg4 harg4 arg5 harg5 hc0 x0 x1 x2 xs0).2.1 S128x256.size (by sl_kernel_rfl) y
/-- What the second case leaves in the accumulator. -/
def sout0_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) : Vec F S128x256 .f32 :=
  VS0.read (Elt F) (VS0.writes (Elt F) VS0.junk (kernelRun0_B c i arg1 harg1 arg2 harg2 arg3 harg3 arg4 harg4 arg5 harg5 hc0 x0 x1 x2 xs0).2.1)

/-! ## The accumulation -/

/-- What the output block and the accumulator hold after the body at position `n`. -/
def outsAt0 (c : Dev nD) : (n : ℕ) → n < cfg0.N → Vec F S128x256 .f32 × Vec F S128x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩))
  | n + 1, hn => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) (iblk0 V c 2 t),
      sout0_A c (grid0.coords t) (ms0_0 t) (hs0_0 t) (ms0_1 t) (hs0_1 t) (ms0_2 t) (hs0_2 t) (ms0_3 t) (hs0_3 t) scM0 (Memref.isWhole_whole _) ((hcond0 t).mpr h0) (iblk0 V c 0 t) (iblk0 V c 1 t) (iblk0 V c 2 t)) := by
  obtain ⟨n, hn⟩ := t
  cases n with
  | zero => rfl
  | succ n => exact absurd h0 (Nat.succ_ne_zero n)

theorem outsAt0_B (c : Dev nD) (t : Fin cfg0.N) (h0 : t.val ≠ 0) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (iblk0 V c 2 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) (ms0_3 t) (hs0_3 t) scM0 (Memref.isWhole_whole _) (fun h => h0 ((hcond0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => rfl

/-- The region's invariant before position `n`: before the first point the class's; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restScoped0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ restScoped0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ restScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point: at the first point the invariant hands the accumulator at anything and the first case runs;
    afterwards it hands it at what the point before left and the second case runs; either way it is taken back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases hz : t.val = 0
  · rw [outsAt0_A V c t hz]
    unfold out0_A_3 sout0_A; (try dsimp only)
    rw [PhiS_castSucc V c t, PhiS_zero V c _ _ hz, PhiA0_eq]
    iintro ⟨⟨⟨HS0, HR⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr hz) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _)
  · rw [outsAt0_B V c t hz]
    unfold out0_B_3 sout0_B; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_B c (grid0.coords t) _ _ _ _ _ _ _ _ _ _ (fun h => hz ((hcond0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HR⟩, Hg⟩
  isplitl [HS0 HR]
  · isplitl [HS0]
    · iexists _; iexact HS0
    iexact HR
  iexact Hg

end

end Cert.Kernel.Hand

end
-- ==== Proof.BitsRun1.lean ====
/-
  The second kernel's body (one tile of rows of the result from the tile of x, the two weight matrices, the two
  bias vectors and the small matrix the first kernel left): its run on whole staging memrefs, the piece its one
  store leaves in the output block found by the run.
-/
import proofs.«121959_j55095840473790_1_alg».proof.Proof.BitsFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The inputs' memrefs at their contents, the output's at anything; the body runs to the continuation holding the
    inputs' as they were and the output's with its piece written. -/
noncomputable def kernelRun1 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) :
    { L6 : List (View.Piece (Elt F) S1024x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)) -∗ K ⟨⟩))
          ⊢ wp frame (wpE (defs₀ (F := F)) Variants.none c none) E (cc1__k2_kernel i arg1 harg1 arg2 harg2 arg3 harg3 arg4 harg4 arg5 harg5 arg6 harg6 arg7 harg7) K } := by
  refine ⟨?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.BitsRegion1.lean ====
/-
  The second region (each tile of rows of the result, from the tile of x, the weights, the biases and the small matrix
  the first region left) at the contents `V` the region finds in the core's arrays: what its output block holds after
  each grid point, the proof data and the body obligation. Nothing is carried between grid points.
-/
import proofs.«121959_j55095840473790_1_alg».proof.Proof.BitsRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x10 .f32 := win1_6.stage (cfg1.slots t 6)
abbrev hs1_6 (t : Fin cfg1.N) : (ms1_6 t).IsWhole := hstage1_6 ((cfg1.slots t 6).cast nbuf1_6)

/-- A view through which the output block's contents are stated. -/
abbrev VO1 : View sig .tc .vmem S1024x10 .f32 := (Memref.whole cc1_stg6_0 : Memref sig .tc .vmem S1024x10 .f32).view

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem cover1_6 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) (y : S1024x10.Idx) :
    ∃ pc ∈ (kernelRun1 c i arg1 harg1 arg2 harg2 arg3 harg3 arg4 harg4 arg5 harg5 arg6 harg6 arg7 harg7 x0 x1 x2 x3 x4 x5).1, y ∈ pc.1.set :=
  View.cover_of_tiledL (kernelRun1 c i arg1 harg1 arg2 harg2 arg3 harg3 arg4 harg4 arg5 harg5 arg6 harg6 arg7 harg7 x0 x1 x2 x3 x4 x5).1 S1024x10.size (by sl_kernel_rfl) y
/-- What the body leaves in the output block: its piece read back. -/
def out1_6 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) : Vec F S1024x10 .f32 :=
  VO1.read (Elt F) (VO1.writes (Elt F) VO1.junk (kernelRun1 c i arg1 harg1 arg2 harg2 arg3 harg3 arg4 harg4 arg5 harg5 arg6 harg6 arg7 harg7 x0 x1 x2 x3 x4 x5).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsKRun.lean ====
/-
  The whole run of the program: the two kernel regions one after the other, then the two stretches of host operations
  (the grouped mean over the batch ids, then the row-wise log of the normalised exponentials). The contents of every
  unscoped buffer of a core are followed from the launch through the four items; each region changes only its output
  array, to what its write-backs leave; the argument arrays reach the end as launched.
-/
import proofs.«121959_j55095840473790_1_alg».proof.Proof.BitsRegion0
import proofs.«121959_j55095840473790_1_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its output array at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the first stretch of host operations, and after the second (the end). -/
abbrev W3 : Dev nD → Valuation τ sig (Elt F) := fun c => StableHlo.after hostOps2 (W2 m ρ c)
abbrev W4 : Dev nD → Valuation τ sig (Elt F) := fun c => StableHlo.after hostOps2_1 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat1 (V1 m ρ) c).arrAt_in 5 rfl _).trans (A_eq1 (V1 m ρ) c 5))
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_noFresh : (hostOps2 : List (HloOp τ sig (Elt F))).Forall fun op => op.fresh = ∅ := by
  simp only [List.Forall]; repeat' constructor
theorem hostOps2_1_noFresh : (hostOps2_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_noFresh (W2 m ρ)),
    .host (hseg hostOps2_1 hostOps2_1_sub hostOps2_1_noFresh (W3 m ρ)) ]

set_option backward.isDefEq.respectTransparency.types false in
/-- Every weakly fair execution of the program terminates, nothing faulting, and in every final state each unscoped
    buffer of each core holds the contents followed above to the end. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          Prog.lift (.customCall (Pipeline.entry 1) ()),
          StableHlo.seq hostOps2,
          StableHlo.seq hostOps2_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.Kernel.Hand

end
-- ==== Proof.KPieces.lean ====
/-
  What the kernels' stores leave, read back as values: after the first kernel's body the output block and the
  accumulator both hold the accumulator's earlier contents (zeros at the first grid point) plus the tile's product;
  after the second kernel's body the output block holds the tile's rows of the result.
-/
import proofs.«121959_j55095840473790_1_alg».proof.Proof.Region0
import proofs.«121959_j55095840473790_1_alg».proof.Proof.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- A load of the whole buffer after stores the last of which wrote the whole buffer reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

theorem out_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) :
    out0_B_3 c i arg1 harg1 arg2 harg2 arg3 harg3 arg4 harg4 arg5 harg5 hc0 x0 x1 x2 xs0 = k0_pay2 x0 x1 x2 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  rw [View.canon_unit_zero hz2, View.readCov_unit_zero (S := S128x256) _ hz2]
  simp only [View.readAt_eq_ld, harg1.read_unread, harg2.read_unread, harg3.read_unread, harg5.read_unread,
    View.ld_unit_zero (S := S1024x128) hz2, View.ld_unit_zero (S := S128x256) hz2, View.ld_unit_zero (S := S256) hz1]

theorem sout_B (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : ¬cond0 i)
    (x0 : Vec F S1024x128 .f32) (x1 : Vec F S128x256 .f32) (x2 : Vec F S256 .f32) (xs0 : Vec F S128x256 .f32) :
    sout0_B c i arg1 harg1 arg2 harg2 arg3 harg3 arg4 harg4 arg5 harg5 hc0 x0 x1 x2 xs0 = k0_pay2 x0 x1 x2 xs0 := by
  unfold sout0_B
  rw [View.read_writes_eq_canon _ _ _ (scover0_B c i arg1 harg1 arg2 harg2 arg3 harg3 arg4 harg4 arg5 harg5 hc0 x0 x1 x2 xs0)]
  unfold kernelRun0_B
  dsimp only
  sl_unfold_words
  rw [View.canon_unit_zero hz2]
  simp only [View.readAt_eq_ld, harg1.read_unread, harg2.read_unread, harg3.read_unread, harg5.read_unread,
    View.ld_unit_zero (S := S1024x128) hz2, View.ld_unit_zero (S := S128x256) hz2, View.ld_unit_zero (S := S256) hz1]

theorem out_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) :
    out0_A_3 c i arg1 harg1 arg2 harg2 arg3 harg3 arg4 harg4 arg5 harg5 hc0 x0 x1 x2 = k0_pay2 x0 x1 x2 k0_pay1 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz2, readCov_cons_whole (S := S128x256) _ hz2, View.readCov_unit_zero (S := S128x256) _ hz2]
  simp only [View.readAt_eq_ld, harg1.read_unread, harg2.read_unread, harg3.read_unread, View.ld_unit_zero (S := S1024x128) hz2, View.ld_unit_zero (S := S128x256) hz2, View.ld_unit_zero (S := S256) hz1]

theorem sout_A (c : Dev nD) (i : grid0.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S128x256 .f32) (harg5 : arg5.IsWhole) (hc0 : cond0 i)
    (x0 : Vec F S1024x128 .f32) (x1 : Vec F S128x256 .f32) (x2 : Vec F S256 .f32) :
    sout0_A c i arg1 harg1 arg2 harg2 arg3 harg3 arg4 harg4 arg5 harg5 hc0 x0 x1 x2 = k0_pay2 x0 x1 x2 k0_pay1 := by
  unfold sout0_A
  rw [View.read_writes_eq_canon _ _ _ (scover0_A c i arg1 harg1 arg2 harg2 arg3 harg3 arg4 harg4 arg5 harg5 hc0 x0 x1 x2)]
  unfold kernelRun0_A
  dsimp only
  sl_unfold_words
  rw [View.canon_cons_unit_zero hz2, View.readCov_unit_zero (S := S128x256) _ hz2]
  simp only [View.readAt_eq_ld, harg1.read_unread, harg2.read_unread, harg3.read_unread, View.ld_unit_zero (S := S1024x128) hz2, View.ld_unit_zero (S := S128x256) hz2, View.ld_unit_zero (S := S256) hz1]

theorem out_1 (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S128x256 .f32) (harg4 : arg4.IsWhole) (arg5 : Memref sig .tc .vmem S256x10 .f32) (harg5 : arg5.IsWhole) (arg6 : Memref sig .tc .vmem S10 .f32) (harg6 : arg6.IsWhole) (arg7 : Memref sig .tc .vmem S1024x10 .f32) (harg7 : arg7.IsWhole)
    (x0 : Vec F S1024x128 .f32) (x1 : Vec F S128x256 .f32) (x2 : Vec F S256 .f32) (x3 : Vec F S128x256 .f32) (x4 : Vec F S256x10 .f32) (x5 : Vec F S10 .f32) :
    out1_6 c i arg1 harg1 arg2 harg2 arg3 harg3 arg4 harg4 arg5 harg5 arg6 harg6 arg7 harg7 x0 x1 x2 x3 x4 x5 = k1_pay1 x0 x1 x2 x3 x4 x5 := by
  unfold out1_6
  rw [View.read_writes_eq_canon _ _ _ (cover1_6 c i arg1 harg1 arg2 harg2 arg3 harg3 arg4 harg4 arg5 harg5 arg6 harg6 arg7 harg7 x0 x1 x2 x3 x4 x5)]
  unfold kernelRun1
  dsimp only
  sl_unfold_words
  rw [View.canon_unit_zero hz2]
  simp only [View.readAt_eq_ld, harg1.read_unread, harg2.read_unread, harg3.read_unread, harg4.read_unread, harg5.read_unread, harg6.read_unread,
    View.ld_unit_zero (S := S1024x128) hz2, View.ld_unit_zero (S := S128x256) hz2, View.ld_unit_zero (S := S256) hz1,
    View.ld_unit_zero (S := S256x10) hz2, View.ld_unit_zero (S := S10) hz1]

/-! ## The accumulator after each grid point, in closed form -/

section
variable (V : (c : Dev nD) → (b : Ref sig .tc) → Buf (Elt F) ((c : Thread nD τ).loc b))

/-- The running accumulation: zeros plus the first tile's product, then plus each later tile's. -/
def acc (c : Dev nD) : (n : ℕ) → n < cfg0.N → Vec F S128x256 .f32
  | 0, h => k0_pay2 (iblk0 V c 0 ⟨0, h⟩) (iblk0 V c 1 ⟨0, h⟩) (iblk0 V c 2 ⟨0, h⟩) k0_pay1
  | n + 1, h => k0_pay2 (iblk0 V c 0 ⟨n + 1, h⟩) (iblk0 V c 1 ⟨n + 1, h⟩) (iblk0 V c 2 ⟨n + 1, h⟩) (acc c n (Nat.lt_of_succ_lt h))

/-- After each grid point the output block and the accumulator both hold the running accumulation. -/
theorem outsAt0_eq (c : Dev nD) : ∀ (n : ℕ) (h : n < cfg0.N), outsAt0 V c n h = (acc V c n h, acc V c n h)
  | 0, h => by
    rw [outsAt0_A V c ⟨0, h⟩ rfl, out_A, sout_A]; rfl
  | n + 1, h => by
    rw [outsAt0_B V c ⟨n + 1, h⟩ (Nat.succ_ne_zero n), out_B, sout_B]
    show (k0_pay2 _ _ _ (outsAt0 V c n _).2, k0_pay2 _ _ _ (outsAt0 V c n _).2) = _
    rw [outsAt0_eq c n]; rfl

end

end Cert.KernelIdeal.Hand

end
-- ==== Proof.CosineRows.lean ====
/-
  Row-level forms of the specification: the scaled row and the ramp layer of ONE row of the input.
-/
import proofs.«121959_j55095840473790_1_alg».proof.Proof.CosineSpec

noncomputable section

namespace Cert.CosineGraph

open Idealize.ShloMosaic

/-- A row scaled by its length (raised to the threshold). -/
def xnRow (r : Fin 128 → EReal) (k : Fin 128) : EReal :=
  Ideal.div (r k) (max (Ideal.sqrt (∑ k' : Fin 128, r k' * r k')) eps)

/-- The first dense layer with its ramp, of one row. -/
def hidRow (r : Fin 128 → EReal) (W1 : Fin 128 → Fin 256 → EReal) (b1 : Fin 256 → EReal) (c : Fin 256) : EReal :=
  max ((∑ k : Fin 128, r k * W1 k c) + b1 c) 0

theorem xn_eq_row (x : Fin 8192 → Fin 128 → EReal) (i : Fin 8192) (k : Fin 128) : xn x i k = xnRow (x i) k := rfl

theorem hid_eq_row (x : Fin 8192 → Fin 128 → EReal) (W1 : Fin 128 → Fin 256 → EReal) (b1 : Fin 256 → EReal)
    (i : Fin 8192) (c : Fin 256) : hid x W1 b1 i c = hidRow (x i) W1 b1 c := rfl

end Cert.CosineGraph

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibTransposedLhsDot.lean ====
/-
  A matrix product with BOTH operands contracted on their leading axis, read at an index, over the extended reals.

  For the dimension numbers of a `K×M` by `K×N` product (contract the left operand's axis 0 with the right operand's
  axis 0, no batch axis) — the product AᵀB of two blocks of rows — the contraction index is one coordinate `k < K`, the
  left operand is read at `(k, p)` and the right one at `(k, q)`. So a kernel's matmul into a zero accumulator is, at
  `(p, q)`, the sum over `k : Fin K` of `lhs (k, p) * rhs (k, q)`.
-/
import Idealize.ShloMosaic.PureOps.Ideal
import Idealize.ShloMosaic.PureOps.Ideal.Laws
import Idealize.ShloMosaic.Lib.ValueIdx

noncomputable section

namespace Idealize.ShloMosaic.TransposedLhsDot

open Idealize.ShloMosaic Idealize.ShloMosaic.ValueIdx

/-- The dimension numbers `<[0], [0], [1], [1]>`: `K×M` by `K×N`, both contracted on the leading axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's index at output `(p, q)` and contraction position `k` is `(k, p)`. -/
theorem lhsIdx_tl (K M N : ℕ) (p : Fin M) (q : Fin N) (k : Fin K) :
    (dims K M N).lhsIdx (ix2 p q) ((contrEquiv1 (dims K M N) K rfl rfl).symm k) = ix2 k p := by
  funext a
  apply Fin.ext
  match a with
  | ⟨0, _⟩ => rfl
  | ⟨1, _⟩ => rfl

/-- The right operand's index at output `(p, q)` and contraction position `k` is `(k, q)`. -/
theorem rhsIdx_tl (K M N : ℕ) (p : Fin M) (q : Fin N) (k : Fin K) :
    (dims K M N).rhsIdx (ix2 p q) ((contrEquiv1 (dims K M N) K rfl rfl).symm k) = ix2 k q := by
  funext a
  apply Fin.ext
  match a with
  | ⟨0, _⟩ => rfl
  | ⟨1, _⟩ => rfl

/-- The contraction sum, re-indexed by the one contracted coordinate. -/
theorem sum_tl (K M N : ℕ) (a : (⟨2, ![K, M]⟩ : Shape).Idx → EReal) (w : (⟨2, ![K, N]⟩ : Shape).Idx → EReal)
    (p : Fin M) (q : Fin N) :
    ∑ k : (dims K M N).contr.Idx,
        a ((dims K M N).lhsIdx (ix2 p q) k) * w ((dims K M N).rhsIdx (ix2 p q) k)
      = ∑ k : Fin K, a (ix2 k p) * w (ix2 k q) := by
  rw [← Equiv.sum_comp (contrEquiv1 (dims K M N) K rfl rfl).symm]
  exact Finset.sum_congr rfl fun k _ => by rw [lhsIdx_tl, rhsIdx_tl]

/-- A kernel's matmul into the zero accumulator, both operands contracted on the leading axis, read at `(p, q)`. -/
theorem matmul_zero_apply {K M N : ℕ} {φ₁ φ₂ : FTy} (d : DotDims ⟨2, ![K, M]⟩ ⟨2, ![K, N]⟩ ⟨2, ![M, N]⟩)
    (hd : d = dims K M N) (prec : Option ContractPrecision)
    (lhs : FVec Ideal ⟨2, ![K, M]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 k p) * rhs (ix2 k q) := by
  subst hd
  rw [Ideal.matmul_constant_zero_apply]
  exact sum_tl K M N lhs rhs p q

end Idealize.ShloMosaic.TransposedLhsDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.KPayloads.lean ====
/-
  The two kernels' arithmetic, read at an index over the extended reals.

  Both kernels work on a tile of 1024 rows of the input. For each row they form its length (raised to a
  threshold), the row scaled by it, and the first dense layer with its ramp. The first kernel adds, to an
  accumulator, the product of the transposed scaled tile with the ramp layer; the second multiplies the scaled
  tile into the accumulated small matrix, corrects the diagonal term, and applies the second dense layer.
  Read at an index, each is a plain formula in the row-level forms of the specification.
-/
import proofs.«121959_j55095840473790_1_alg».proof.Proof.Gen.KernelIdeal.Skeleton
import proofs.«121959_j55095840473790_1_alg».proof.Proof.CosineRows
import proofs.«121959_j55095840473790_1_alg».proof.Proof.LibPlainDot
import proofs.«121959_j55095840473790_1_alg».proof.Proof.LibTransposedLhsDot
import proofs.«121959_j55095840473790_1_alg».proof.Proof.LibRowReduce
import proofs.«121959_j55095840473790_1_alg».proof.Proof.LibColumns
import proofs.«121959_j55095840473790_1_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Idealize.ShloMosaic Idealize.ShloMosaic.ValueIdx Cert.KernelIdeal Cert.KernelIdeal.Facts₀ Cert.CosineGraph

/-! ### The pieces both kernels share, on one tile -/

/-- The column of row lengths of a tile, raised to the threshold. -/
def nrmCol (x0 : FVec Ideal S1024x128 .f32) : FVec Ideal S1024x1 .f32 :=
  maximumf
    (sqrt (shapeCast S1024x1
      (multiReduction .add [1] S1024 (mulf x0 x0) 0x00000000#32 reduces_S1024x128_S1024 (.inl rfl) rfl)
      shapeCasts_S1024_S1024x1))
    (broadcast S1024x1 (Scalar.ofBits .f32 0x322BCC77#32))

/-- The tile with each row scaled by its length. -/
def xnTile (x0 : FVec Ideal S1024x128 .f32) : FVec Ideal S1024x128 .f32 :=
  divf x0 (broadcastTo S1024x128 (nrmCol x0) broadcasts_S1024x1_S1024x128)

/-- The first dense layer with its ramp, on the tile. -/
def hidTile (x0 : FVec Ideal S1024x128 .f32) (w1 : FVec Ideal S128x256 .f32) (bv : FVec Ideal S256 .f32) :
    FVec Ideal S1024x256 .f32 :=
  maximumf
    (addf
      (matmul dot_S1024x128_S128x256_S1024x256_1_0_0_1_n_n none (truncf .bf16 x0 bitsLt_bf16_f32)
        (truncf .bf16 w1 bitsLt_bf16_f32) (constant S1024x256 .f32 0x00000000#32))
      (broadcastTo S1024x256 (shapeCast S1x256 bv shapeCasts_S256_S1x256) broadcasts_S1x256_S1024x256))
    (broadcast S1024x256 (Scalar.ofBits .f32 0x00000000#32))

/-- The lane sum of a tile at row j, with the accumulator word as printed. -/
theorem rowSum_apply (v : FVec Ideal S1024x128 .f32) (hacc : (0x00000000#32 : BitVec 32) = 0x00000000#32) (j : Fin 1024) :
    multiReduction .add [1] S1024 v 0x00000000#32 reduces_S1024x128_S1024 (.inl rfl) hacc (ix1 j)
      = ∑ k' : Fin 128, v (ix2 j k') :=
  RowReduce.multiReduction_add_row v 0x00000000#32 reduces_S1024x128_S1024 (.inl rfl) hacc j

theorem nrmCol_apply (x0 : FVec Ideal S1024x128 .f32) (j : Fin 1024) :
    nrmCol x0 (ix2 j (0 : Fin 1)) = max (Ideal.sqrt (∑ k' : Fin 128, x0 (ix2 j k') * x0 (ix2 j k'))) eps := by
  show max (Ideal.sqrt (shapeCast S1024x1
      (multiReduction .add [1] S1024 (mulf x0 x0) 0x00000000#32 reduces_S1024x128_S1024 (.inl rfl) rfl)
      shapeCasts_S1024_S1024x1 (ix2 j (0 : Fin 1)))) eps = _
  rw [RowReduce.shapeCast_a_a1_apply]
  refine congrArg (fun s => max (Ideal.sqrt s) eps) ?_
  exact rowSum_apply (mulf x0 x0) rfl j

theorem xnTile_apply (x0 : FVec Ideal S1024x128 .f32) (j : Fin 1024) (k : Fin 128) :
    xnTile x0 (ix2 j k) = xnRow (fun k' => x0 (ix2 j k')) k := by
  show Ideal.div (x0 (ix2 j k)) (broadcastTo S1024x128 (nrmCol x0) broadcasts_S1024x1_S1024x128 (ix2 j k)) = _
  rw [broadcastTo_a1_ab_apply, nrmCol_apply]
  rfl

theorem hidTile_apply (x0 : FVec Ideal S1024x128 .f32) (w1 : FVec Ideal S128x256 .f32) (bv : FVec Ideal S256 .f32)
    (j : Fin 1024) (c : Fin 256) :
    hidTile x0 w1 bv (ix2 j c)
      = hidRow (fun k' => x0 (ix2 j k')) (fun k' c' => w1 (ix2 k' c')) (fun c' => bv (ix1 c')) c := by
  show max
      (matmul dot_S1024x128_S128x256_S1024x256_1_0_0_1_n_n none (truncf .bf16 x0 bitsLt_bf16_f32)
          (truncf .bf16 w1 bitsLt_bf16_f32) (constant S1024x256 .f32 0x00000000#32) (ix2 j c)
        + broadcastTo S1024x256 (shapeCast S1x256 bv shapeCasts_S256_S1x256) broadcasts_S1x256_S1024x256 (ix2 j c))
      (Ideal.ofBits .f32 0x00000000#32) = _
  rw [DenseLayer.castRow_apply, Ideal.ofBits_zero_f32]
  refine congrArg (fun s => max (s + bv (ix1 c)) 0) ?_
  exact PlainDot.matmul_zero_apply dot_S1024x128_S128x256_S1024x256_1_0_0_1_n_n rfl none
    (truncf .bf16 x0 bitsLt_bf16_f32) (truncf .bf16 w1 bitsLt_bf16_f32) j c

/-! ### The first kernel -/

/-- The block the first kernel starts its accumulator with is zero. -/
theorem pay1_apply (j : S128x256.Idx) : Gen.k0_pay1 (F := Ideal) j = 0 := by
  show shapeCast S128x256 (broadcast S128x256 (Scalar.ofBits (F := Ideal) .f32 0x00000000#32))
    shapeCasts_S128x256_S128x256 j = 0
  rw [shapeCast_self]
  exact Ideal.ofBits_zero_f32

/-- The first kernel's payload as the shared pieces. -/
theorem k0_pay2_eq (x0 : Vec Ideal S1024x128 .f32) (w1 : Vec Ideal S128x256 .f32) (bv : Vec Ideal S256 .f32)
    (acc : Vec Ideal S128x256 .f32) :
    Gen.k0_pay2 (F := Ideal) x0 w1 bv acc
      = shapeCast S128x256
          (addf acc
            (matmul dot_S1024x128_S1024x256_S128x256_0_0_1_1_n_n none (truncf .bf16 (xnTile x0) bitsLt_bf16_f32)
              (truncf .bf16 (hidTile x0 w1 bv) bitsLt_bf16_f32) (constant S128x256 .f32 0x00000000#32)))
          shapeCasts_S128x256_S128x256 := rfl

/-- The first kernel adds, to the accumulator, the scaled tile transposed times the ramp layer. -/
theorem pay2_apply (x0 : Vec Ideal S1024x128 .f32) (w1 : Vec Ideal S128x256 .f32) (bv : Vec Ideal S256 .f32)
    (acc : Vec Ideal S128x256 .f32) (k : Fin 128) (c : Fin 256) :
    Gen.k0_pay2 (F := Ideal) x0 w1 bv acc (ix2 k c)
      = acc (ix2 k c) + ∑ j : Fin 1024, xnRow (fun k' => x0 (ix2 j k')) k
          * hidRow (fun k' => x0 (ix2 j k')) (fun k' c' => w1 (ix2 k' c')) (fun c' => bv (ix1 c')) c := by
  rw [k0_pay2_eq, shapeCast_self]
  refine congrArg (fun s => acc (ix2 k c) + s) ?_
  refine (TransposedLhsDot.matmul_zero_apply dot_S1024x128_S1024x256_S128x256_0_0_1_1_n_n rfl none
    (truncf .bf16 (xnTile x0) bitsLt_bf16_f32) (truncf .bf16 (hidTile x0 w1 bv) bitsLt_bf16_f32) k c).trans ?_
  exact Finset.sum_congr rfl fun j _ => congrArg₂ (· * ·) (xnTile_apply x0 j k) (hidTile_apply x0 w1 bv j c)

end Cert.KernelIdeal.HandValue

end
-- ==== Proof.KValue0.lean ====
/-
  The first region's result at the ideal values: the small matrix it leaves is, entry by entry, the sum over the eight
  tiles of the tile's inner products of a column of scaled rows with a column of the hidden layer.

  A block of x at grid point t holds rows 1024·t … 1024·t + 1023; the blocks of the weight matrix and of the bias are
  the whole arrays; the output block is the whole output array and is written back once, after the last point.
-/
import proofs.«121959_j55095840473790_1_alg».proof.Proof.KPieces
import proofs.«121959_j55095840473790_1_alg».proof.Proof.KPayloads
import proofs.«121959_j55095840473790_1_alg».proof.Proof.CosineRows
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.CosineGraph Idealize.ShloMosaic.ValueIdx

open Cert.KernelIdeal.HandValue

section
variable (V : (c : Dev nD) → (b : Ref sig .tc) → Buf (Elt Ideal) ((c : Thread nD τ).loc b))

/-- The argument arrays as plain functions of their coordinates. -/
def xF (c : Dev nD) : Fin 8192 → Fin 128 → EReal := fun i k => (V c main_arg0 : S8192x128.Idx → EReal) (ix2 i k)
def w1F (c : Dev nD) : Fin 128 → Fin 256 → EReal := fun k q => (V c main_arg2 : S128x256.Idx → EReal) (ix2 k q)
def b1F (c : Dev nD) : Fin 256 → EReal := fun q => (V c main_arg3 : S256.Idx → EReal) (ix1 q)

/-- A grid point of the first region as a tile number. -/
def tile0 (t : Fin cfg0.N) : Fin 8 := ⟨t.val, lt_of_lt_of_eq t.isLt N_0⟩

/-- The block of x at point `t` holds the rows of tile `t`. -/
theorem iblk0_x (c : Dev nD) (t : Fin cfg0.N) (j : Fin 1024) (k : Fin 128) :
    (iblk0 V c 0 t : Vec Ideal S1024x128 .f32) (ix2 j k) = xF V c (row (tile0 t) j) k := by
  have hi : win0_0.index t 0 = t.val ∧ win0_0.index t 1 = 0 := by
    rcases fin_N0 t with rfl | rfl | rfl | rfl | rfl | rfl | rfl | rfl <;> decide
  unfold iblk0 xF
  rw [View.read_apply]
  show V c main_arg0 _ = V c main_arg0 _
  congr 1
  funext a
  apply Fin.ext
  match a with
  | ⟨0, _⟩ => show win0_0.index t 0 * 1024 + 1 * j.val = 1024 * t.val + j.val; rw [hi.1]; omega
  | ⟨1, _⟩ => show win0_0.index t 1 * 128 + 1 * k.val = k.val; rw [hi.2]; omega

/-- The block of the weight matrix at any point is the whole matrix. -/
theorem iblk0_w (c : Dev nD) (t : Fin cfg0.N) (k : Fin 128) (q : Fin 256) :
    (iblk0 V c 1 t : Vec Ideal S128x256 .f32) (ix2 k q) = w1F V c k q := by
  have hi : win0_1.index t 0 = 0 ∧ win0_1.index t 1 = 0 := by
    rcases fin_N0 t with rfl | rfl | rfl | rfl | rfl | rfl | rfl | rfl <;> decide
  unfold iblk0 w1F
  rw [View.read_apply]
  show V c main_arg2 _ = V c main_arg2 _
  congr 1
  funext a
  apply Fin.ext
  match a with
  | ⟨0, _⟩ => show win0_1.index t 0 * 128 + 1 * k.val = k.val; rw [hi.1]; omega
  | ⟨1, _⟩ => show win0_1.index t 1 * 256 + 1 * q.val = q.val; rw [hi.2]; omega

/-- The block of the bias at any point is the whole vector. -/
theorem iblk0_b (c : Dev nD) (t : Fin cfg0.N) (q : Fin 256) :
    (iblk0 V c 2 t : Vec Ideal S256 .f32) (ix1 q) = b1F V c q := by
  have hi : win0_2.index t 0 = 0 := by
    rcases fin_N0 t with rfl | rfl | rfl | rfl | rfl | rfl | rfl | rfl <;> decide
  unfold iblk0 b1F
  rw [View.read_apply]
  show V c main_arg3 _ = V c main_arg3 _
  congr 1
  funext a
  apply Fin.ext
  match a with
  | ⟨0, _⟩ => show win0_2.index t 0 * 256 + 1 * q.val = q.val; rw [hi]; omega

/-- Tile `t`'s contribution to entry (k, q) of the small matrix (zero past the eighth tile). -/
def part (c : Dev nD) (t : ℕ) (k : Fin 128) (q : Fin 256) : EReal :=
  if h : t < 8 then ∑ j : Fin 1024, xn (xF V c) (row ⟨t, h⟩ j) k * hid (xF V c) (w1F V c) (b1F V c) (row ⟨t, h⟩ j) q else 0

/-- The tile's product the body adds, entry by entry. -/
theorem pay2_blocks (c : Dev nD) (t : Fin cfg0.N) (a : Vec Ideal S128x256 .f32) (k : Fin 128) (q : Fin 256) :
    Gen.k0_pay2 (F := Ideal) (iblk0 V c 0 t) (iblk0 V c 1 t) (iblk0 V c 2 t) a (ix2 k q) = a (ix2 k q) + part V c t.val k q := by
  have ht : t.val < 8 := lt_of_lt_of_eq t.isLt N_0
  refine (pay2_apply _ _ _ a k q).trans ?_
  unfold part
  rw [dif_pos ht]
  refine congrArg (a (ix2 k q) + ·) (Finset.sum_congr rfl fun j _ => ?_)
  rw [xn_eq_row, hid_eq_row]
  have hx : (fun k' => (iblk0 V c 0 t : Vec Ideal S1024x128 .f32) (ix2 j k')) = xF V c (row ⟨t.val, ht⟩ j) :=
    funext fun k' => iblk0_x V c t j k'
  have hw : (fun k' c' => (iblk0 V c 1 t : Vec Ideal S128x256 .f32) (ix2 k' c')) = w1F V c :=
    funext fun k' => funext fun c' => iblk0_w V c t k' c'
  have hb : (fun c' => (iblk0 V c 2 t : Vec Ideal S256 .f32) (ix1 c')) = b1F V c := funext fun c' => iblk0_b V c t c'
  rw [hx, hw, hb]

/-- The running accumulation after point `n`, entry by entry: the tiles' contributions up to `n`. -/
theorem acc_apply (c : Dev nD) : ∀ (n : ℕ) (h : n < cfg0.N) (k : Fin 128) (q : Fin 256),
    acc V c n h (ix2 k q) = ∑ t ∈ Finset.range (n + 1), part V c t k q
  | 0, h, k, q => by
    show Gen.k0_pay2 (F := Ideal) (iblk0 V c 0 ⟨0, h⟩) (iblk0 V c 1 ⟨0, h⟩) (iblk0 V c 2 ⟨0, h⟩) (Gen.k0_pay1 (F := Ideal)) (ix2 k q) = _
    rw [pay2_blocks V c ⟨0, h⟩, pay1_apply, zero_add, Finset.sum_range_one]
  | n + 1, h, k, q => by
    show Gen.k0_pay2 (F := Ideal) (iblk0 V c 0 ⟨n + 1, h⟩) (iblk0 V c 1 ⟨n + 1, h⟩) (iblk0 V c 2 ⟨n + 1, h⟩) (acc V c n _) (ix2 k q) = _
    rw [pay2_blocks V c ⟨n + 1, h⟩, acc_apply c n, Finset.sum_range_succ _ (n + 1)]

/-- What the first region leaves in its output array: the accumulation after the last point. -/
abbrev result0 (c : Dev nD) : Buf (Elt Ideal) ((c : Thread nD τ).loc main_v0) :=
  acc V c 7 (by rw [show cfg0.N = 8 from N_0]; decide)

/-- Entry by entry it is the small matrix xnᵀ·hid, summed tile by tile. -/
theorem result0_apply (c : Dev nD) (k : Fin 128) (q : Fin 256) :
    (result0 V c : S128x256.Idx → EReal) (ix2 k q) = CosineGraph.tsum (xF V c) (w1F V c) (b1F V c) k q := by
  show acc V c 7 _ (ix2 k q) = _
  rw [acc_apply, Finset.sum_range]
  unfold CosineGraph.tsum
  refine Finset.sum_congr rfl fun t _ => ?_
  unfold part
  rw [dif_pos t.isLt]

/-- The one write-back, after the last point, writes the accumulation: the block is the whole array. -/
theorem flushed0_eq (c : Dev nD) (t : Fin cfg0.N) (hf : (cfg0.win 3).flush t = true) :
    (dat0 V c).flushed 3 t = ((cfg0.win 3).blk t).view.read (Elt Ideal) (result0 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3, outsAt0_eq]
  have hz' : (fun a => win0_3.index t0_7 a * main_v0.ty.shape.size a) = fun _ => 0 := funext fun a => by fin_cases a <;> decide
  exact (Memref.read_access_unit_zero (Elt Ideal) main_v0 hz' (fun a => by rw [congrFun hz' a]; simp) (result0 V c)).symm

/-- So the output array ends holding the accumulation after the last point. -/
theorem final0 (c : Dev nD) : (dat0 V c).arrAt 3 cfg0.N = result0 V c :=
  (dat0 V c).arrAt_eq_of_cover 3 (result0 V c) (flushed0_eq V c) fun i =>
    ⟨t0_7, (flush0_3 t0_7).mpr rfl, by
      show i ∈ ((View.whole main_v0).slice (win0_3.rect t0_7)).set
      rw [View.set_slice_whole, Rect.mem_set_unit]
      intro a
      have h0 : (i 0 : Nat) < 128 := (i 0).isLt
      have h1 : (i 1 : Nat) < 256 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 128 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 256 from by decide +kernel]; omega⟩

end

end Cert.KernelIdeal.Hand

end
-- ==== Proof.KPay1.lean ====
/-
  The second kernel's arithmetic, read at an index over the extended reals.

  On a tile of 1024 rows: the scaled tile times the accumulated small matrix, plus the diagonal correction
  (one minus the squared length of the scaled row) times the ramp layer, then the second dense layer.
-/
import proofs.«121959_j55095840473790_1_alg».proof.Proof.KPayloads

noncomputable section

namespace Cert.KernelIdeal.HandValue

open Idealize.ShloMosaic Idealize.ShloMosaic.ValueIdx Cert.KernelIdeal Cert.KernelIdeal.Facts₀ Cert.CosineGraph

/-- The column of squared lengths of the scaled rows. -/
def diagCol (x0 : FVec Ideal S1024x128 .f32) : FVec Ideal S1024x1 .f32 :=
  shapeCast S1024x1
    (multiReduction .add [1] S1024 (mulf (xnTile x0) (xnTile x0)) 0x00000000#32 reduces_S1024x128_S1024 (.inl rfl) rfl)
    shapeCasts_S1024_S1024x1

/-- The aggregation on the tile: through the small matrix, with the diagonal term corrected. -/
def aggTile (x0 : FVec Ideal S1024x128 .f32) (w1 : FVec Ideal S128x256 .f32) (bv : FVec Ideal S256 .f32)
    (tm : FVec Ideal S128x256 .f32) : FVec Ideal S1024x256 .f32 :=
  addf
    (matmul dot_S1024x128_S128x256_S1024x256_1_0_0_1_n_n none (truncf .bf16 (xnTile x0) bitsLt_bf16_f32)
      (truncf .bf16 (shapeCast S128x256 tm shapeCasts_S128x256_S128x256) bitsLt_bf16_f32)
      (constant S1024x256 .f32 0x00000000#32))
    (mulf
      (broadcastTo S1024x256 (subf (broadcast S1024x1 (Scalar.ofBits .f32 0x3F800000#32)) (diagCol x0))
        broadcasts_S1024x1_S1024x256)
      (hidTile x0 w1 bv))

theorem diagCol_apply (x0 : FVec Ideal S1024x128 .f32) (p : Fin 1024) :
    diagCol x0 (ix2 p (0 : Fin 1))
      = ∑ k : Fin 128, xnRow (fun k' => x0 (ix2 p k')) k * xnRow (fun k' => x0 (ix2 p k')) k := by
  unfold diagCol
  rw [RowReduce.shapeCast_a_a1_apply]
  refine (rowSum_apply (mulf (xnTile x0) (xnTile x0)) rfl p).trans ?_
  exact Finset.sum_congr rfl fun k _ => congrArg₂ (· * ·) (xnTile_apply x0 p k) (xnTile_apply x0 p k)

theorem aggTile_apply (x0 : FVec Ideal S1024x128 .f32) (w1 : FVec Ideal S128x256 .f32) (bv : FVec Ideal S256 .f32)
    (tm : FVec Ideal S128x256 .f32) (p : Fin 1024) (c : Fin 256) :
    aggTile x0 w1 bv tm (ix2 p c)
      = (∑ k : Fin 128, xnRow (fun k' => x0 (ix2 p k')) k * tm (ix2 k c))
        + (one - ∑ k : Fin 128, xnRow (fun k' => x0 (ix2 p k')) k * xnRow (fun k' => x0 (ix2 p k')) k)
          * hidRow (fun k' => x0 (ix2 p k')) (fun k' c' => w1 (ix2 k' c')) (fun c' => bv (ix1 c')) c := by
  show matmul dot_S1024x128_S128x256_S1024x256_1_0_0_1_n_n none (truncf .bf16 (xnTile x0) bitsLt_bf16_f32)
        (truncf .bf16 (shapeCast S128x256 tm shapeCasts_S128x256_S128x256) bitsLt_bf16_f32)
        (constant S1024x256 .f32 0x00000000#32) (ix2 p c)
      + broadcastTo S1024x256 (subf (broadcast S1024x1 (Scalar.ofBits .f32 0x3F800000#32)) (diagCol x0))
          broadcasts_S1024x1_S1024x256 (ix2 p c) * hidTile x0 w1 bv (ix2 p c) = _
  rw [broadcastTo_a1_ab_apply, hidTile_apply]
  refine congrArg₂ (· + ·) ?_ (congrArg (· * _) ?_)
  · refine (PlainDot.matmul_zero_apply dot_S1024x128_S128x256_S1024x256_1_0_0_1_n_n rfl none
      (truncf .bf16 (xnTile x0) bitsLt_bf16_f32)
      (truncf .bf16 (shapeCast S128x256 tm shapeCasts_S128x256_S128x256) bitsLt_bf16_f32) p c).trans ?_
    refine Finset.sum_congr rfl fun k _ => congrArg₂ (· * ·) (xnTile_apply x0 p k) ?_
    show shapeCast S128x256 tm shapeCasts_S128x256_S128x256 (ix2 k c) = tm (ix2 k c)
    rw [shapeCast_self]
  · show one - diagCol x0 (ix2 p (0 : Fin 1)) = _
    rw [diagCol_apply]

/-- The second kernel's payload as the shared pieces. -/
theorem k1_pay1_eq (x0 : Vec Ideal S1024x128 .f32) (w1 : Vec Ideal S128x256 .f32) (bv : Vec Ideal S256 .f32)
    (tm : Vec Ideal S128x256 .f32) (w2 : Vec Ideal S256x10 .f32) (b2v : Vec Ideal S10 .f32) :
    Gen.k1_pay1 (F := Ideal) x0 w1 bv tm w2 b2v
      = addf
          (matmul dot_S1024x256_S256x10_S1024x10_1_0_0_1_n_n none (truncf .bf16 (aggTile x0 w1 bv tm) bitsLt_bf16_f32)
            (truncf .bf16 w2 bitsLt_bf16_f32) (constant S1024x10 .f32 0x00000000#32))
          (broadcastTo S1024x10 (shapeCast S1x10 b2v shapeCasts_S10_S1x10) broadcasts_S1x10_S1024x10) := rfl

/-- The second kernel's output rows: the corrected aggregation through the second dense layer. -/
theorem kpay1_apply (x0 : Vec Ideal S1024x128 .f32) (w1 : Vec Ideal S128x256 .f32) (bv : Vec Ideal S256 .f32)
    (tm : Vec Ideal S128x256 .f32) (w2 : Vec Ideal S256x10 .f32) (b2v : Vec Ideal S10 .f32) (p : Fin 1024) (o : Fin 10) :
    Gen.k1_pay1 (F := Ideal) x0 w1 bv tm w2 b2v (ix2 p o)
      = (∑ c : Fin 256,
          ((∑ k : Fin 128, xnRow (fun k' => x0 (ix2 p k')) k * tm (ix2 k c))
            + (one - ∑ k : Fin 128, xnRow (fun k' => x0 (ix2 p k')) k * xnRow (fun k' => x0 (ix2 p k')) k)
              * hidRow (fun k' => x0 (ix2 p k')) (fun k' c' => w1 (ix2 k' c')) (fun c' => bv (ix1 c')) c)
          * w2 (ix2 c o))
        + b2v (ix1 o) := by
  rw [k1_pay1_eq]
  show matmul dot_S1024x256_S256x10_S1024x10_1_0_0_1_n_n none (truncf .bf16 (aggTile x0 w1 bv tm) bitsLt_bf16_f32)
        (truncf .bf16 w2 bitsLt_bf16_f32) (constant S1024x10 .f32 0x00000000#32) (ix2 p o)
      + broadcastTo S1024x10 (shapeCast S1x10 b2v shapeCasts_S10_S1x10) broadcasts_S1x10_S1024x10 (ix2 p o) = _
  rw [DenseLayer.castRow_apply]
  refine congrArg (· + b2v (ix1 o)) ?_
  refine (PlainDot.matmul_zero_apply dot_S1024x256_S256x10_S1024x10_1_0_0_1_n_n rfl none
    (truncf .bf16 (aggTile x0 w1 bv tm) bitsLt_bf16_f32) (truncf .bf16 w2 bitsLt_bf16_f32) p o).trans ?_
  exact Finset.sum_congr rfl fun c _ => congrArg (· * w2 (ix2 c o)) (aggTile_apply x0 w1 bv tm p c)

end Cert.KernelIdeal.HandValue

end
-- ==== Proof.KValue1.lean ====
/-
  The second region's result at the ideal values: each row of its output array is the second dense layer applied to
  the aggregation of that row through the small matrix the region finds in the first region's output array, with the
  diagonal term corrected. The output's block at grid point t is rows 1024·t … 1024·t + 1023, written back at every
  point; the blocks tile the array.
-/
import proofs.«121959_j55095840473790_1_alg».proof.Proof.KValue0
import proofs.«121959_j55095840473790_1_alg».proof.Proof.KPay1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.CosineGraph Idealize.ShloMosaic.ValueIdx

open Cert.KernelIdeal.HandValue

section
variable (V : (c : Dev nD) → (b : Ref sig .tc) → Buf (Elt Ideal) ((c : Thread nD τ).loc b))

def w2F (c : Dev nD) : Fin 256 → Fin 10 → EReal := fun q o => (V c main_arg4 : S256x10.Idx → EReal) (ix2 q o)
def b2F (c : Dev nD) : Fin 10 → EReal := fun o => (V c main_arg5 : S10.Idx → EReal) (ix1 o)
/-- The small matrix as the second region finds it. -/
def tF (c : Dev nD) : Fin 128 → Fin 256 → EReal := fun k q => (V c main_v0 : S128x256.Idx → EReal) (ix2 k q)

def tile1 (t : Fin cfg1.N) : Fin 8 := ⟨t.val, lt_of_lt_of_eq t.isLt N_1⟩

/-- The block of x at point `t` holds the rows of tile `t`. -/
theorem iblk1_x (c : Dev nD) (t : Fin cfg1.N) (j : Fin 1024) (k : Fin 128) :
    (iblk1 V c 0 t : Vec Ideal S1024x128 .f32) (ix2 j k) = xF V c (row (tile1 t) j) k := by
  have hi : win1_0.index t 0 = t.val ∧ win1_0.index t 1 = 0 := by
    rcases fin_N1 t with rfl | rfl | rfl | rfl | rfl | rfl | rfl | rfl <;> decide
  unfold iblk1 xF
  rw [View.read_apply]
  show V c main_arg0 _ = V c main_arg0 _
  congr 1
  funext a
  apply Fin.ext
  match a with
  | ⟨0, _⟩ => show win1_0.index t 0 * 1024 + 1 * j.val = 1024 * t.val + j.val; rw [hi.1]; omega
  | ⟨1, _⟩ => show win1_0.index t 1 * 128 + 1 * k.val = k.val; rw [hi.2]; omega

/-- The other windows' blocks are the whole arrays. -/
theorem iblk1_w1 (c : Dev nD) (t : Fin cfg1.N) (k : Fin 128) (q : Fin 256) :
    (iblk1 V c 1 t : Vec Ideal S128x256 .f32) (ix2 k q) = w1F V c k q := by
  have hi : win1_1.index t 0 = 0 ∧ win1_1.index t 1 = 0 := by
    rcases fin_N1 t with rfl | rfl | rfl | rfl | rfl | rfl | rfl | rfl <;> decide
  unfold iblk1 w1F
  rw [View.read_apply]
  show V c main_arg2 _ = V c main_arg2 _
  congr 1
  funext d
  apply Fin.ext
  match d with
  | ⟨0, _⟩ => show win1_1.index t 0 * 128 + 1 * k.val = k.val; rw [hi.1]; omega
  | ⟨1, _⟩ => show win1_1.index t 1 * 256 + 1 * q.val = q.val; rw [hi.2]; omega

theorem iblk1_b1 (c : Dev nD) (t : Fin cfg1.N) (q : Fin 256) :
    (iblk1 V c 2 t : Vec Ideal S256 .f32) (ix1 q) = b1F V c q := by
  have hi : win1_2.index t 0 = 0 := by
    rcases fin_N1 t with rfl | rfl | rfl | rfl | rfl | rfl | rfl | rfl <;> decide
  unfold iblk1 b1F
  rw [View.read_apply]
  show V c main_arg3 _ = V c main_arg3 _
  congr 1
  funext d
  apply Fin.ext
  match d with
  | ⟨0, _⟩ => show win1_2.index t 0 * 256 + 1 * q.val = q.val; rw [hi]; omega

theorem iblk1_t (c : Dev nD) (t : Fin cfg1.N) (k : Fin 128) (q : Fin 256) :
    (iblk1 V c 3 t : Vec Ideal S128x256 .f32) (ix2 k q) = tF V c k q := by
  have hi : win1_3.index t 0 = 0 ∧ win1_3.index t 1 = 0 := by
    rcases fin_N1 t with rfl | rfl | rfl | rfl | rfl | rfl | rfl | rfl <;> decide
  unfold iblk1 tF
  rw [View.read_apply]
  show V c main_v0 _ = V c main_v0 _
  congr 1
  funext d
  apply Fin.ext
  match d with
  | ⟨0, _⟩ => show win1_3.index t 0 * 128 + 1 * k.val = k.val; rw [hi.1]; omega
  | ⟨1, _⟩ => show win1_3.index t 1 * 256 + 1 * q.val = q.val; rw [hi.2]; omega

theorem iblk1_w2 (c : Dev nD) (t : Fin cfg1.N) (q : Fin 256) (o : Fin 10) :
    (iblk1 V c 4 t : Vec Ideal S256x10 .f32) (ix2 q o) = w2F V c q o := by
  have hi : win1_4.index t 0 = 0 ∧ win1_4.index t 1 = 0 := by
    rcases fin_N1 t with rfl | rfl | rfl | rfl | rfl | rfl | rfl | rfl <;> decide
  unfold iblk1 w2F
  rw [View.read_apply]
  show V c main_arg4 _ = V c main_arg4 _
  congr 1
  funext d
  apply Fin.ext
  match d with
  | ⟨0, _⟩ => show win1_4.index t 0 * 256 + 1 * q.val = q.val; rw [hi.1]; omega
  | ⟨1, _⟩ => show win1_4.index t 1 * 10 + 1 * o.val = o.val; rw [hi.2]; omega

theorem iblk1_b2 (c : Dev nD) (t : Fin cfg1.N) (o : Fin 10) :
    (iblk1 V c 5 t : Vec Ideal S10 .f32) (ix1 o) = b2F V c o := by
  have hi : win1_5.index t 0 = 0 := by
    rcases fin_N1 t with rfl | rfl | rfl | rfl | rfl | rfl | rfl | rfl <;> decide
  unfold iblk1 b2F
  rw [View.read_apply]
  show V c main_arg5 _ = V c main_arg5 _
  congr 1
  funext d
  apply Fin.ext
  match d with
  | ⟨0, _⟩ => show win1_5.index t 0 * 10 + 1 * o.val = o.val; rw [hi]; omega

/-- What the second region leaves in its output array, entry by entry. -/
def outArr (c : Dev nD) : Buf (Elt Ideal) ((c : Thread nD τ).loc main_v1) := fun i =>
  (∑ q : Fin 256,
      ((∑ k : Fin 128, xnRow (xF V c (i 0)) k * tF V c k q)
        + (one - ∑ k : Fin 128, xnRow (xF V c (i 0)) k * xnRow (xF V c (i 0)) k) * hidRow (xF V c (i 0)) (w1F V c) (b1F V c) q)
      * w2F V c q (i 1))
    + b2F V c (i 1)

/-- The body's result at a point, entry by entry, is the output array's entry in that tile's row. -/
theorem pay_blocks1 (c : Dev nD) (t : Fin cfg1.N) (p : Fin 1024) (o : Fin 10) :
    Gen.k1_pay1 (F := Ideal) (iblk1 V c 0 t) (iblk1 V c 1 t) (iblk1 V c 2 t) (iblk1 V c 3 t) (iblk1 V c 4 t) (iblk1 V c 5 t) (ix2 p o)
      = (outArr V c : S8192x10.Idx → EReal) (ix2 (row (tile1 t) p) o) := by
  refine (kpay1_apply _ _ _ _ _ _ p o).trans ?_
  have hx : (fun k' => (iblk1 V c 0 t : Vec Ideal S1024x128 .f32) (ix2 p k')) = xF V c (row (tile1 t) p) :=
    funext fun k' => iblk1_x V c t p k'
  have hw : (fun k' c' => (iblk1 V c 1 t : Vec Ideal S128x256 .f32) (ix2 k' c')) = w1F V c :=
    funext fun k' => funext fun c' => iblk1_w1 V c t k' c'
  have hb : (fun c' => (iblk1 V c 2 t : Vec Ideal S256 .f32) (ix1 c')) = b1F V c := funext fun c' => iblk1_b1 V c t c'
  rw [hx, hw, hb]
  simp only [iblk1_t, iblk1_w2, iblk1_b2]
  rfl

theorem idx1_6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)

/-- What point `t` writes back is block `t` of the output array's contents. -/
theorem flushed1_eq (c : Dev nD) (t : Fin cfg1.N) :
    (dat1 V c).flushed 6 t = ((cfg1.win 6).blk t).view.read (Elt Ideal) (outArr V c) := by
  show (cfg1.win 6).cut (grid1.coords t) ((dat1 V c).after 6 t) = _
  rw [after1_6, out_1]
  obtain ⟨e0, e1⟩ := idx1_6 t
  funext y
  show Gen.k1_pay1 (F := Ideal) (iblk1 V c 0 t) (iblk1 V c 1 t) (iblk1 V c 2 t) (iblk1 V c 3 t) (iblk1 V c 4 t) (iblk1 V c 5 t) y
    = outArr V c (((cfg1.win 6).blk t).view.emb y)
  obtain ⟨p, o, rfl⟩ : ∃ (p : Fin 1024) (o : Fin 10), y = ix2 p o := ⟨y 0, y 1, eq_ix2 y⟩
  rw [pay_blocks1]
  refine congrArg (outArr V c) ?_
  funext a
  apply Fin.ext
  match a with
  | ⟨0, _⟩ => show 1024 * t.val + p.val = win1_6.index t (0 : Fin 2) * 1024 + 1 * p.val; rw [e0]; omega
  | ⟨1, _⟩ => show o.val = win1_6.index t (1 : Fin 2) * 10 + 1 * o.val; rw [e1]; omega

theorem mem_blk1 (t : Fin cfg1.N) (i : S8192x10.Idx) :
    i ∈ ((cfg1.win 6).blk t).view.set ↔ ∀ a : Fin 2, win1_6.index t a * S1024x10.size a ≤ (i a).val ∧ (i a).val < win1_6.index t a * S1024x10.size a + S1024x10.size a := by
  show i ∈ ((View.whole main_v1).slice (win1_6.rect t)).set ↔ _
  rw [View.set_slice_whole, Rect.mem_set_unit]
  exact Iff.rfl

/-- The blocks tile the array, so it ends holding those contents. -/
theorem final1 (c : Dev nD) : (dat1 V c).arrAt 6 cfg1.N = outArr V c :=
  (dat1 V c).arrAt_eq_of_cover 6 (outArr V c) (fun t _ => flushed1_eq V c t) fun i => by
    have h0 : (i 0).val < 8192 := (i 0).isLt
    have h1 : (i 1).val < 10 := (i 1).isLt
    have hN : cfg1.N = 8 := N_1
    refine ⟨⟨(i 0).val / 1024, by omega⟩, flush1_6 _, ?_⟩
    rw [mem_blk1]
    obtain ⟨e0, e1⟩ := idx1_6 ⟨(i 0).val / 1024, by omega⟩
    intro a
    match a with
    | ⟨0, _⟩ => show win1_6.index _ (0 : Fin 2) * 1024 ≤ (i 0).val ∧ (i 0).val < win1_6.index _ (0 : Fin 2) * 1024 + 1024; rw [e0]; dsimp only; omega
    | ⟨1, _⟩ => show win1_6.index _ (1 : Fin 2) * 10 ≤ (i 1).val ∧ (i 1).val < win1_6.index _ (1 : Fin 2) * 10 + 10; rw [e1]; omega

/-- When the small matrix found is xnᵀ·hid summed tile by tile, the output array is the second dense layer of the
    aggregation through it. -/
theorem outArr_eq (c : Dev nD) (h : tF V c = CosineGraph.tsum (xF V c) (w1F V c) (b1F V c)) :
    (outArr V c : S8192x10.Idx → EReal) = fun i => outOf (aggK (xF V c) (w1F V c) (b1F V c)) (w2F V c) (b2F V c) (i 0) (i 1) := by
  funext i
  unfold outArr outOf aggK diag
  rw [h]
  rfl

end

end Cert.KernelIdeal.Hand

end
-- ==== Proof.KValue.lean ====
/-
  The kernel program's run with its result named: the two kernel regions leave, in the second's output array, the
  second dense layer of the aggregation through the small matrix xnᵀ·hid; the host operations that follow apply the
  group means and the row-wise logarithmic normalisation to it.
-/
import proofs.«121959_j55095840473790_1_alg».proof.Proof.KValue1
import proofs.«121959_j55095840473790_1_alg».proof.Proof.KRun
import proofs.«121959_j55095840473790_1_alg».proof.Proof.KTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.CosineGraph Idealize.ShloMosaic.ValueIdx

open Cert.KernelIdeal.HandValue

variable (m : (ℓ : Loc nD τ sig) → Buf (Elt Ideal) ℓ) (ρ : Dev nD → PrngReg)

/-- The first region leaves the arguments it stages as it found them, -/
theorem W1_main_arg0 (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem W1_main_arg2 (c : Dev nD) : W1 m ρ c (Proc.devRef .tc main_arg2) = W0 m ρ c (Proc.devRef .tc main_arg2) :=
  (W1_arr m ρ c 1).trans (((dat0 (V0 m ρ) c).arrAt_in 1 rfl _).trans (A_eq0 (V0 m ρ) c 1))
theorem W1_main_arg3 (c : Dev nD) : W1 m ρ c (Proc.devRef .tc main_arg3) = W0 m ρ c (Proc.devRef .tc main_arg3) :=
  (W1_arr m ρ c 2).trans (((dat0 (V0 m ρ) c).arrAt_in 2 rfl _).trans (A_eq0 (V0 m ρ) c 2))
/-- and in its output array the small matrix. -/
theorem W1_main_v0 (c : Dev nD) : W1 m ρ c (Proc.devRef .tc main_v0) = result0 (V0 m ρ) c :=
  (W1_arr m ρ c 3).trans (final0 (V0 m ρ) c)

theorem xF_V1 (c : Dev nD) : xF (V1 m ρ) c = xF (V0 m ρ) c := by
  unfold xF; funext i k; exact congrFun (W1_main_arg0 m ρ c) _
theorem w1F_V1 (c : Dev nD) : w1F (V1 m ρ) c = w1F (V0 m ρ) c := by
  unfold w1F; funext i k; exact congrFun (W1_main_arg2 m ρ c) _
theorem b1F_V1 (c : Dev nD) : b1F (V1 m ρ) c = b1F (V0 m ρ) c := by
  unfold b1F; funext i; exact congrFun (W1_main_arg3 m ρ c) _
theorem w2F_V1 (c : Dev nD) : w2F (V1 m ρ) c = w2F (V0 m ρ) c := by
  unfold w2F; funext i k; exact congrFun (W1_of_ne m ρ c main_arg4 (by decide)) _
theorem b2F_V1 (c : Dev nD) : b2F (V1 m ρ) c = b2F (V0 m ρ) c := by
  unfold b2F; funext i; exact congrFun (W1_of_ne m ρ c main_arg5 (by decide)) _
theorem tF_V1 (c : Dev nD) : tF (V1 m ρ) c = CosineGraph.tsum (xF (V0 m ρ) c) (w1F (V0 m ρ) c) (b1F (V0 m ρ) c) := by
  funext k q
  unfold tF
  refine (congrFun (W1_main_v0 m ρ c) _).trans ?_
  exact result0_apply (V0 m ρ) c k q

/-- The second region's output array after both regions. -/
theorem W2_main_v1 (c : Dev nD) :
    (W2 m ρ c (Proc.devRef .tc main_v1) : S8192x10.Idx → EReal)
      = fun i => outOf (aggK (xF (V0 m ρ) c) (w1F (V0 m ρ) c) (b1F (V0 m ρ) c)) (w2F (V0 m ρ) c) (b2F (V0 m ρ) c) (i 0) (i 1) := by
  refine ((W2_arr m ρ c 6).trans (final1 (V1 m ρ) c)).trans ?_
  rw [outArr_eq (V1 m ρ) c (by rw [tF_V1, xF_V1, w1F_V1, b1F_V1]), xF_V1, w1F_V1, b1F_V1, w2F_V1, b2F_V1]

theorem W2_main_arg1 (c : Dev nD) : W2 m ρ c (Proc.devRef .tc main_arg1) = m ((c : Thread nD τ).loc main_arg1) :=
  (W2_of_ne m ρ c main_arg1 (by decide)).trans ((W1_of_ne m ρ c main_arg1 (by decide)).trans rfl)

/-- The result buffer at the end. -/
theorem W4_main_v14 (c : Dev nD) :
    W4 m ρ c (Proc.devRef .tc main_v14)
      = tailK (fun i => outOf (aggK (xF (V0 m ρ) c) (w1F (V0 m ρ) c) (b1F (V0 m ρ) c)) (w2F (V0 m ρ) c) (b2F (V0 m ρ) c) (i 0) (i 1))
          (m ((c : Thread nD τ).loc main_arg1)) := by
  refine (tail_eq (W2 m ρ c)).trans ?_
  rw [W2_main_arg1]
  exact congrArg (tailK · _) (W2_main_v1 m ρ c)

/-- Every weakly fair execution of the kernel program at the ideal values terminates with its result buffer at the host
    chain of the second dense layer of the aggregation through xnᵀ·hid, and its arguments as launched. -/
theorem value_run : θ_run (defs (F := Ideal)) (onTc (τ := τ) (main (F := Ideal))) ⟨m, fun _ => 0, ρ⟩ (fun r => ∀ c : Dev nD,
      r.2.mem ((c.tc : Thread nD τ).loc main_v14)
        = tailK (fun i => outOf (aggK (fun p k => m ((c.tc : Thread nD τ).loc main_arg0) (ix2 p k))
              (fun k q => m ((c.tc : Thread nD τ).loc main_arg2) (ix2 k q)) (fun q => m ((c.tc : Thread nD τ).loc main_arg3) (ix1 q)))
            (fun q o => m ((c.tc : Thread nD τ).loc main_arg4) (ix2 q o)) (fun o => m ((c.tc : Thread nD τ).loc main_arg5) (ix1 o)) (i 0) (i 1))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v14 (by decide))).trans (W4_main_v14 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.Hand

end
-- ==== Proof.Assembly.lean ====
/-
  The five claims, assembled.

  The three frames are the runs with the results dropped. The value claim: on the extended reals the kernel ends at
  the host tail of the second dense layer of the aggregation through the small matrix `xnᵀ · hid` with the diagonal
  term corrected, the reference at the same tail of the same layer of the aggregation through the full table of inner
  products with unit diagonal; on finite inputs every quantity is a real number, where the two aggregations are equal
  by distributing the sums, and the two host tails are the same operations.
-/
import proofs.«121959_j55095840473790_1_alg».proof.Defs
import proofs.«121959_j55095840473790_1_alg».proof.Proof.RefValue
import proofs.«121959_j55095840473790_1_alg».proof.Proof.CosineLaw
import proofs.«121959_j55095840473790_1_alg».proof.Proof.FiniteInputs
import proofs.«121959_j55095840473790_1_alg».proof.Proof.KTailEq
import proofs.«121959_j55095840473790_1_alg».proof.Proof.KRun
import proofs.«121959_j55095840473790_1_alg».proof.Proof.BitsKRun
import proofs.«121959_j55095840473790_1_alg».proof.Proof.KValue
import proofs.«121959_j55095840473790_1_alg».proof.Proof.Gen.Kernel
import proofs.«121959_j55095840473790_1_alg».proof.Proof.Gen.KernelIdeal
import proofs.«121959_j55095840473790_1_alg».proof.Proof.Gen.ReferenceIdeal
import proofs.«121959_j55095840473790_1_alg».proof.Proof.Gen.Pre_finite_inputs

noncomputable section

namespace Cert.Proof.Claims

open Idealize.ShloMosaic Idealize.ShloMosaic.TcCoe Idealize.SL.Sem

/-- The kernel program as printed runs, and its argument arrays end as launched. -/
theorem frame_k : Cert.frame_Kernel := fun m ρ _ => Cert.Kernel.Hand.frame m ρ

/-- The kernel program read on the extended reals runs, and its argument arrays end as launched. -/
theorem frame_ki : Cert.frame_KernelIdeal := fun m ρ _ => Cert.KernelIdeal.Hand.frame m ρ

/-- The reference runs, and its argument arrays end as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals, so there is nothing to preserve. -/
theorem preserves : Cert.preserves_Kernel_KernelIdeal := trivial

/-- On the extended reals, from memories that agree on the arguments and hold finite inputs, the kernel ends at the
    host tail of the second dense layer of the aggregation through the small matrix, and the reference at the same
    tail of the same layer of the aggregation through the full table; on real inputs the two aggregations are one
    function (the correction term on the diagonal is what the full table's unit diagonal adds), and the two tails
    are one function. -/
theorem algebraic : Cert.algebraic_KernelIdeal_ReferenceIdeal := by
  intro m ρ m' ρ' hpre hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  obtain ⟨r0, r2, r3, _, _⟩ := Cert.CosineGraph.inputs_real _ _ _ _ _ _ (hpre c)
  rw [Cert.ReferenceIdeal.RefValue.result_eq_run m' c, h0, h1, h2, h3, h4, h5]
  beta_reduce
  rw [Cert.KernelIdeal.HandValue.tailK_eq_tail,
    Cert.CosineGraph.aggK_eq_aggR _ _ _ (fun i k => r0 (ValueIdx.ix2 i k)) (fun k q => r2 (ValueIdx.ix2 k q))
      (fun q => r3 (ValueIdx.ix1 q))]

end Cert.Proof.Claims

end
-- ==== Proof.lean ====
/-
  The kernel computes the pooled log-softmax of a two-layer dense network whose middle step multiplies by the table of
  cosine similarities of the input rows with unit diagonal, without forming the table: it multiplies each scaled row
  into the small matrix `xnᵀ · hid` and corrects the diagonal term. On finite inputs this is the reference's value
  (Proof/Assembly.lean), behind the witnesses of the facts the programs state.
-/
import proofs.«121959_j55095840473790_1_alg».proof.Defs
import proofs.«121959_j55095840473790_1_alg».proof.Proof.Gen.Kernel
import proofs.«121959_j55095840473790_1_alg».proof.Proof.Gen.KernelIdeal
import proofs.«121959_j55095840473790_1_alg».proof.Proof.Gen.ReferenceIdeal
import proofs.«121959_j55095840473790_1_alg».proof.Proof.Gen.Pre_finite_inputs
import proofs.«121959_j55095840473790_1_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
